-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x3200000 : Shape := ⟨2, ![2, 3200000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part3 {F : FTy → Type} [FloatOps F] (main_v48 : IVec S_ 1) (main_v49 : FVec F S64x64 .f32) (main_v50 : FVec F S64x64 .f32) : IVec S_ 1 :=
  let main_v51 : IVec S64x64 1 := cmpf .olt main_v49 main_v50
  let main_c_19 : IVec S_ 1 := constantI S_ 1 1#1
  let main_v52 : IVec S_ 1 := (fun x v => Host.reduce IntOp.andi x v reducesTo_S64x64_S_d0_1 h_S_) main_v51 main_c_19
  let main_v53 : IVec S_ 1 := andi main_v48 main_v52
  main_v53

def fn_part2 {F : FTy → Type} [FloatOps F] (main_arg8 : FVec F S64 .f32) (main_arg9 : FVec F S64x64 .f32) (main_arg10 : FVec F S64 .f32) (main_arg11 : FVec F S64x64 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x64 .f32 := Host.absf main_arg9
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x64 .f32 := Host.absf main_arg11
  let main_cst_18 : FVec F S_ .f32 := constant S_ .f32 0x7F800000#32
  let main_v50 : FVec F S64x64 .f32 := broadcastInDim S64x64 ![] bcast_S_S64x64 main_cst_18
  fn_part3 (F := F) main_v48 main_v49 main_v50

def fn_part1 {F : FTy → Type} [FloatOps F] (main_arg5 : FVec F S64x64 .f32) (main_arg6 : FVec F S64 .f32) (main_arg7 : FVec F S64x64 .f32) (main_arg8 : FVec F S64 .f32) (main_arg9 : FVec F S64x64 .f32) (main_arg10 : FVec F S64 .f32) (main_arg11 : FVec F S64x64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg7
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg8 main_arg9 main_arg10 main_arg11 main_v33

def fn {F : FTy → Type} [FloatOps F] (main_arg0 : FVec F S100000x64 .f32) (main_arg1 : IVec S2x3200000 32) (main_arg2 : FVec F S64x64 .f32) (main_arg3 : FVec F S64 .f32) (main_arg4 : FVec F S64x64 .f32) (main_arg5 : FVec F S64x64 .f32) (main_arg6 : FVec F S64 .f32) (main_arg7 : FVec F S64x64 .f32) (main_arg8 : FVec F S64 .f32) (main_arg9 : FVec F S64x64 .f32) (main_arg10 : FVec F S64 .f32) (main_arg11 : FVec F S64x64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_arg8 main_arg9 main_arg10 main_arg11 main_v13 main_v16
-- ==== Kernel.lean ====
abbrev S100000x64 : Shape := ⟨2, ![100000, 64]⟩
abbrev S2x3200000 : Shape := ⟨2, ![2, 3200000]⟩
abbrev S64x64 : Shape := ⟨2, ![64, 64]⟩
abbrev S64 : Shape := ⟨1, ![64]⟩
abbrev S1x3200000 : Shape := ⟨2, ![1, 3200000]⟩
abbrev S3200000 : Shape := ⟨1, ![3200000]⟩
abbrev S_ : Shape := ⟨0, ![]⟩
abbrev S100000 : Shape := ⟨1, ![100000]⟩
abbrev S3200000x1 : Shape := ⟨2, ![3200000, 1]⟩
abbrev S3200000x64 : Shape := ⟨2, ![3200000, 64]⟩
abbrev S100000x1 : Shape := ⟨2, ![100000, 1]⟩
abbrev S1x64 : Shape := ⟨2, ![1, 64]⟩
abbrev S5000x64 : Shape := ⟨2, ![5000, 64]⟩

abbrev nBuf : Space → Nat
  | .hbm => 66
  | .vmem => 22
  | .smem => 0
  | _ => 0

abbrev bufTy : (tb : Table) → Fin (tcTables nBuf tb) → BufTy
  | .hbm, ⟨0, _⟩ => ⟨S100000x64, .f32⟩
  | .hbm, ⟨1, _⟩ => ⟨S2x3200000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S64x64, .f32⟩
  | .hbm, ⟨12, _⟩ => ⟨S1x3200000, .i32⟩
  | .hbm, ⟨13, _⟩ => ⟨S3200000, .i32⟩
  | .hbm, ⟨14, _⟩ => ⟨S1x3200000, .i32⟩
  | .hbm, ⟨15, _⟩ => ⟨S3200000, .i32⟩
  | .hbm, ⟨16, _⟩ => ⟨S_, .f32⟩
  | .hbm, ⟨17, _⟩ => ⟨S3200000, .f32⟩
  | .hbm, ⟨18, _⟩ => ⟨S_, .f32⟩
  | .hbm, ⟨19, _⟩ => ⟨S100000, .f32⟩
  | .hbm, ⟨20, _⟩ => ⟨S3200000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S3200000, .i32⟩
  | .hbm, ⟨30, _⟩ => ⟨S3200000, .i1⟩
  | .hbm, ⟨31, _⟩ => ⟨S_, .i32⟩
  | .hbm, ⟨32, _⟩ => ⟨S3200000, .i32⟩
  | .hbm, ⟨33, _⟩ => ⟨S3200000, .i32⟩
  | .hbm, ⟨34, _⟩ => ⟨S3200000, .i32⟩
  | .hbm, ⟨35, _⟩ => ⟨S3200000x1, .i32⟩
  | .hbm, ⟨36, _⟩ => ⟨S3200000x64, .f32⟩
  | .hbm, ⟨37, _⟩ => ⟨S_, .f32⟩
  | .hbm, ⟨38, _⟩ => ⟨S100000x64, .f32⟩
  | .hbm, ⟨39, _⟩ => ⟨S3200000x1, .i32⟩
  | .hbm, ⟨40, _⟩ => ⟨S100000x64, .f32⟩
  | .hbm, ⟨41, _⟩ => ⟨S100000x1, .f32⟩
  | .hbm, ⟨42, _⟩ => ⟨S100000x64, .f32⟩
  | .hbm, ⟨43, _⟩ => ⟨S100000x64, .f32⟩
  | .hbm, ⟨44, _⟩ => ⟨S1x64, .f32⟩
  | .hbm, ⟨45, _⟩ => ⟨S1x64, .f32⟩
  | .hbm, ⟨46, _⟩ => ⟨S1x64, .f32⟩
  | .hbm, ⟨47, _⟩ => ⟨S100000x64, .f32⟩
  | .hbm, ⟨48, _⟩ => ⟨S_, .i32⟩
  | .hbm, ⟨49, _⟩ => ⟨S3200000, .i32⟩
  | .hbm, ⟨50, _⟩ => ⟨S3200000, .i1⟩
  | .hbm, ⟨51, _⟩ => ⟨S_, .i32⟩
  | .hbm, ⟨52, _⟩ => ⟨S3200000, .i32⟩
  | .hbm, ⟨53, _⟩ => ⟨S3200000, .i32⟩
  | .hbm, ⟨54, _⟩ => ⟨S3200000, .i32⟩
  | .hbm, ⟨55, _⟩ => ⟨S3200000x1, .i32⟩
  | .hbm, ⟨56, _⟩ => ⟨S3200000x64, .f32⟩
  | .hbm, ⟨57, _⟩ => ⟨S_, .f32⟩
  | .hbm, ⟨58, _⟩ => ⟨S100000x64, .f32⟩
  | .hbm, ⟨59, _⟩ => ⟨S3200000x1, .i32⟩
  | .hbm, ⟨60, _⟩ => ⟨S100000x64, .f32⟩
  | .hbm, ⟨61, _⟩ => ⟨S100000x1, .f32⟩
  | .hbm, ⟨62, _⟩ => ⟨S100000x64, .f32⟩
  | .hbm, ⟨63, _⟩ => ⟨S100000x64, .f32⟩
  | .hbm, ⟨64, _⟩ => ⟨S1x64, .f32⟩
  | .hbm, ⟨65, _⟩ => ⟨S100000x64, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x64, .f32⟩
  | .local _ .vmem, ⟨5, _⟩ => ⟨S1x64, .f32⟩
  | .local _ .vmem, ⟨6, _⟩ => ⟨S64x64, .f32⟩
  | .local _ .vmem, ⟨7, _⟩ => ⟨S64x64, .f32⟩
  | .local _ .vmem, ⟨8, _⟩ => ⟨S1x64, .f32⟩
  | .local _ .vmem, ⟨9, _⟩ => ⟨S64x64, .f32⟩
  | .local _ .vmem, ⟨10, _⟩ => ⟨S1x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S64x64, .f32⟩
  | .local _ .vmem, ⟨18, _⟩ => ⟨S1x64, .f32⟩
  | .local _ .vmem, ⟨19, _⟩ => ⟨S64x64, .f32⟩
  | .local _ .vmem, ⟨20, _⟩ => ⟨S5000x64, .f32⟩
  | .local _ .vmem, ⟨21, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_cst_2 : Ref sig .tc := ⟨.hbm, 25, rfl⟩
abbrev main_v10 : Ref sig .tc := ⟨.hbm, 26, rfl⟩
abbrev main_v11 : Ref sig .tc := ⟨.hbm, 27, rfl⟩
abbrev main_c : Ref sig .tc := ⟨.hbm, 28, rfl⟩
abbrev main_v12 : Ref sig .tc := ⟨.hbm, 29, rfl⟩
abbrev main_v13 : Ref sig .tc := ⟨.hbm, 30, rfl⟩
abbrev main_c_3 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst_4 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_c_5 : Ref sig .tc := ⟨.hbm, 48, rfl⟩
abbrev main_v29 : Ref sig .tc := ⟨.hbm, 49, rfl⟩
abbrev main_v30 : Ref sig .tc := ⟨.hbm, 50, rfl⟩
abbrev main_c_6 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst_7 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg5_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem3_0 : DmaSem sig := 18
abbrev cc1_sem4_0 : DmaSem sig := 19
abbrev cc1_sem5_0 : DmaSem sig := 20
abbrev cc1_sem5_1 : DmaSem sig := 21

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S5000x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  transposes_S64x64_p1_0_S64x64 : S64x64.Transposes [1, 0] S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  scatter_S100000_S3200000x1_S3200000_n_0_0_1_wf : ScatterDims.WF S100000 S3200000x1 S3200000 [] [0] [0] 1
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x64.size a ≤ S64x64.size a
  hwx0_7 : ∀ i : grid0.Coords, EltTy.bits .f32 = 32 ∨ (Rect.block (s := S64x64) S64x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x64.size a ≤ S1x64.size a
  hwx0_8 : ∀ i : grid0.Coords, EltTy.bits .f32 = 32 ∨ (Rect.block (s := S1x64) S1x64.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S5000x64.size a ≤ S100000x64.size a
  hwx0_9 : ∀ i : grid0.Coords, EltTy.bits .f32 = 32 ∨ (Rect.block (s := S100000x64) S5000x64.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S100000x64.size a
  hwx1_5 : ∀ i : grid1.Coords, EltTy.bits .f32 = 32 ∨ (Rect.block (s := S100000x64) S5000x64.size (cc1_transform_5 i) (hinb1_5 i)).WholeWords (EltTy.packing .f32)

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v24) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v26) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S64x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v27) S1x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v28) S5000x64.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v28) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v41) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg9) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v42) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg11) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v43) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x3200000 : Shape := ⟨2, ![2, 3200000]⟩
abbrev S64x64 : Shape := ⟨2, ![64, 64]⟩
abbrev S64 : Shape := ⟨1, ![64]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S3200000x64 : Shape := ⟨2, ![3200000, 64]⟩
abbrev S100000 : Shape := ⟨1, ![100000]⟩
abbrev S100000x1 : Shape := ⟨2, ![100000, 1]⟩
abbrev S1x64 : Shape := ⟨2, ![1, 64]⟩

abbrev nBuf : Space → Nat
  | .hbm => 98
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x3200000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S64x64, .f32⟩
  | .hbm, ⟨12, _⟩ => ⟨S1x3200000, .i32⟩
  | .hbm, ⟨13, _⟩ => ⟨S3200000, .i32⟩
  | .hbm, ⟨14, _⟩ => ⟨S1x3200000, .i32⟩
  | .hbm, ⟨15, _⟩ => ⟨S3200000, .i32⟩
  | .hbm, ⟨16, _⟩ => ⟨S_, .i32⟩
  | .hbm, ⟨17, _⟩ => ⟨S3200000, .i32⟩
  | .hbm, ⟨18, _⟩ => ⟨S3200000, .i1⟩
  | .hbm, ⟨19, _⟩ => ⟨S_, .i32⟩
  | .hbm, ⟨20, _⟩ => ⟨S3200000, .i32⟩
  | .hbm, ⟨21, _⟩ => ⟨S3200000, .i32⟩
  | .hbm, ⟨22, _⟩ => ⟨S3200000, .i32⟩
  | .hbm, ⟨23, _⟩ => ⟨S3200000x1, .i32⟩
  | .hbm, ⟨24, _⟩ => ⟨S3200000x64, .f32⟩
  | .hbm, ⟨25, _⟩ => ⟨S_, .f32⟩
  | .hbm, ⟨26, _⟩ => ⟨S100000x64, .f32⟩
  | .hbm, ⟨27, _⟩ => ⟨S3200000x1, .i32⟩
  | .hbm, ⟨28, _⟩ => ⟨S100000x64, .f32⟩
  | .hbm, ⟨29, _⟩ => ⟨S_, .f32⟩
  | .hbm, ⟨30, _⟩ => ⟨S3200000, .f32⟩
  | .hbm, ⟨31, _⟩ => ⟨S_, .f32⟩
  | .hbm, ⟨32, _⟩ => ⟨S100000, .f32⟩
  | .hbm, ⟨33, _⟩ => ⟨S3200000x1, .i32⟩
  | .hbm, ⟨34, _⟩ => ⟨S100000, .f32⟩
  | .hbm, ⟨35, _⟩ => ⟨S_, .f32⟩
  | .hbm, ⟨36, _⟩ => ⟨S100000, .f32⟩
  | .hbm, ⟨37, _⟩ => ⟨S100000, .f32⟩
  | .hbm, ⟨38, _⟩ => ⟨S100000x1, .f32⟩
  | .hbm, ⟨39, _⟩ => ⟨S100000x64, .f32⟩
  | .hbm, ⟨40, _⟩ => ⟨S100000x64, .f32⟩
  | .hbm, ⟨41, _⟩ => ⟨S64x64, .f32⟩
  | .hbm, ⟨42, _⟩ => ⟨S100000x64, .f32⟩
  | .hbm, ⟨43, _⟩ => ⟨S1x64, .f32⟩
  | .hbm, ⟨44, _⟩ => ⟨S100000x64, .f32⟩
  | .hbm, ⟨45, _⟩ => ⟨S100000x64, .f32⟩
  | .hbm, ⟨46, _⟩ => ⟨S64x64, .f32⟩
  | .hbm, ⟨47, _⟩ => ⟨S100000x64, .f32⟩
  | .hbm, ⟨48, _⟩ => ⟨S100000x64, .f32⟩
  | .hbm, ⟨49, _⟩ => ⟨S_, .f32⟩
  | .hbm, ⟨50, _⟩ => ⟨S100000x64, .f32⟩
  | .hbm, ⟨51, _⟩ => ⟨S100000x64, .f32⟩
  | .hbm, ⟨52, _⟩ => ⟨S64x64, .f32⟩
  | .hbm, ⟨53, _⟩ => ⟨S100000x64, .f32⟩
  | .hbm, ⟨54, _⟩ => ⟨S1x64, .f32⟩
  | .hbm, ⟨55, _⟩ => ⟨S100000x64, .f32⟩
  | .hbm, ⟨56, _⟩ => ⟨S100000x64, .f32⟩
  | .hbm, ⟨57, _⟩ => ⟨S_, .f32⟩
  | .hbm, ⟨58, _⟩ => ⟨S100000x64, .f32⟩
  | .hbm, ⟨59, _⟩ => ⟨S100000x64, .f32⟩
  | .hbm, ⟨60, _⟩ => ⟨S64x64, .f32⟩
  | .hbm, ⟨61, _⟩ => ⟨S100000x64, .f32⟩
  | .hbm, ⟨62, _⟩ => ⟨S1x64, .f32⟩
  | .hbm, ⟨63, _⟩ => ⟨S100000x64, .f32⟩
  | .hbm, ⟨64, _⟩ => ⟨S100000x64, .f32⟩
  | .hbm, ⟨65, _⟩ => ⟨S_, .i32⟩
  | .hbm, ⟨66, _⟩ => ⟨S3200000, .i32⟩
  | .hbm, ⟨67, _⟩ => ⟨S3200000, .i1⟩
  | .hbm, ⟨68, _⟩ => ⟨S_, .i32⟩
  | .hbm, ⟨69, _⟩ => ⟨S3200000, .i32⟩
  | .hbm, ⟨70, _⟩ => ⟨S3200000, .i32⟩
  | .hbm, ⟨71, _⟩ => ⟨S3200000, .i32⟩
  | .hbm, ⟨72, _⟩ => ⟨S3200000x1, .i32⟩
  | .hbm, ⟨73, _⟩ => ⟨S3200000x64, .f32⟩
  | .hbm, ⟨74, _⟩ => ⟨S_, .f32⟩
  | .hbm, ⟨75, _⟩ => ⟨S100000x64, .f32⟩
  | .hbm, ⟨76, _⟩ => ⟨S3200000x1, .i32⟩
  | .hbm, ⟨77, _⟩ => ⟨S100000x64, .f32⟩
  | .hbm, ⟨78, _⟩ => ⟨S_, .f32⟩
  | .hbm, ⟨79, _⟩ => ⟨S3200000, .f32⟩
  | .hbm, ⟨80, _⟩ => ⟨S_, .f32⟩
  | .hbm, ⟨81, _⟩ => ⟨S100000, .f32⟩
  | .hbm, ⟨82, _⟩ => ⟨S3200000x1, .i32⟩
  | .hbm, ⟨83, _⟩ => ⟨S100000, .f32⟩
  | .hbm, ⟨84, _⟩ => ⟨S_, .f32⟩
  | .hbm, ⟨85, _⟩ => ⟨S100000, .f32⟩
  | .hbm, ⟨86, _⟩ => ⟨S100000, .f32⟩
  | .hbm, ⟨87, _⟩ => ⟨S100000x1, .f32⟩
  | .hbm, ⟨88, _⟩ => ⟨S100000x64, .f32⟩
  | .hbm, ⟨89, _⟩ => ⟨S100000x64, .f32⟩
  | .hbm, ⟨90, _⟩ => ⟨S64x64, .f32⟩
  | .hbm, ⟨91, _⟩ => ⟨S100000x64, .f32⟩
  | .hbm, ⟨92, _⟩ => ⟨S1x64, .f32⟩
  | .hbm, ⟨93, _⟩ => ⟨S100000x64, .f32⟩
  | .hbm, ⟨94, _⟩ => ⟨S100000x64, .f32⟩
  | .hbm, ⟨95, _⟩ => ⟨S64x64, .f32⟩
  | .hbm, ⟨96, _⟩ => ⟨S100000x64, .f32⟩
  | .hbm, ⟨97, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_1 : Ref sig .tc := ⟨.hbm, 29, rfl⟩
abbrev main_v14 : Ref sig .tc := ⟨.hbm, 30, rfl⟩
abbrev main_cst_2 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_call0_cst : Ref sig .tc := ⟨.hbm, 49, rfl⟩
abbrev main_call0_v0 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_call1_cst : Ref sig .tc := ⟨.hbm, 57, rfl⟩
abbrev main_call1_v0 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_c_4 : Ref sig .tc := ⟨.hbm, 65, rfl⟩
abbrev main_v43 : Ref sig .tc := ⟨.hbm, 66, rfl⟩
abbrev main_v44 : Ref sig .tc := ⟨.hbm, 67, rfl⟩
abbrev main_c_5 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_cst_6 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_cst_7 : Ref sig .tc := ⟨.hbm, 78, rfl⟩
abbrev main_v53 : Ref sig .tc := ⟨.hbm, 79, rfl⟩
abbrev main_cst_8 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_cst_9 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  transposes_S64x64_S64x64_1_0 : S64x64.Transposes [1, 0] S64x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  scatter_S100000_S3200000x1_S3200000_n_0_0_1_wf : ScatterDims.WF S100000 S3200000x1 S3200000 [] [0] [0] 1
  dot_S100000x64_S64x64_S100000x64_1_0_0_1_n_n_wf : DotDims.WF S100000x64 S64x64 S100000x64 [1] [0] [0] [1] [] []

variable [Facts₀]

def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.KernelRun.lean ====
/-
  The idealized kernel's run with its result named.

  Every weakly fair execution of the program terminates without a fault; afterwards the result
  buffer holds what the last boundary's contents `W4` give it (the second call's output array, the
  fold of both calls' write-backs and of the host operations between them) and every argument
  array is as launched. The launch over the four segments is the one the frame uses, with the
  final thread state read at the result buffer as well.
-/
import proofs.«166979_j22385369547049_1_alg».proof.Proof.Gen.KernelIdeal.Frame

set_option maxRecDepth 16384

noncomputable section

namespace Cert.KernelIdeal.RunV

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: termination, no fault, the result buffer at the last boundary's contents, the
    arguments as launched. -/
theorem run : θ_run defs (onTc (τ := τ) (main (F := F))) ⟨m, fun _ => 0, ρ⟩ (fun r => ∀ c : Dev nD,
      r.2.mem ((c.tc : Thread nD τ).loc main_v43) = W4 m ρ c (Proc.devRef .tc main_v43)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v43 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c)⟩)

end Cert.KernelIdeal.RunV

end
-- ==== Proof.SageSpec.lean ====
/-
  The mathematics shared by both programs, over plain rows of 64 features on the extended reals.

  One SAGE layer sends a node's own row `x` and the mean `a` of its in-neighbours' rows to
  `a · Wlᵀ + bl + x · Wrᵀ`; between the two layers a ReLU and a two-layer perceptron act row by row.
  The neighbour mean is the scattered sum divided by `max deg 1`; one program multiplies by the
  reciprocal `1 / max deg 1` instead, and `mean_law` is the one algebraic law that joins them: the
  divisor `max e 1` is never zero, so both are the product with its inverse.
-/
import Idealize.ShloMosaic.PureOps.Ideal
import Idealize.ShloMosaic.PureOps.Ideal.Laws
import Idealize.ShloMosaic.Lib.ValueIdx

noncomputable section

open scoped BigOperators
open Idealize.ShloMosaic Idealize.ShloMosaic.ValueIdx

namespace Cert.Sage

/-- Row `p` of an array with 64 columns. -/
def row {n : Nat} (A : (⟨2, ![n, 64]⟩ : Shape).Idx → EReal) (p : Fin n) : Fin 64 → EReal := fun k => A (ix2 p k)

/-- A 64×64 weight matrix, by output feature `q` and input feature `k`. -/
def mat (W : (⟨2, ![64, 64]⟩ : Shape).Idx → EReal) : Fin 64 → Fin 64 → EReal := fun q k => W (ix2 q k)

/-- A bias kept as a one-row array. -/
def brow (b : (⟨2, ![1, 64]⟩ : Shape).Idx → EReal) : Fin 64 → EReal := fun q => b (ix2 0 q)

/-- A bias vector. -/
def bvec (b : (⟨1, ![64]⟩ : Shape).Idx → EReal) : Fin 64 → EReal := fun q => b (ix1 q)

/-- One layer's linear combination at output feature `q`: `(a · Wlᵀ + bl + x · Wrᵀ) q`. -/
def lin (a x : Fin 64 → EReal) (Wl Wr : Fin 64 → Fin 64 → EReal) (bl : Fin 64 → EReal) (q : Fin 64) : EReal :=
  ((∑ k : Fin 64, a k * Wl q k) + bl q) + ∑ k : Fin 64, x k * Wr q k

/-- ReLU, then the two-layer perceptron, at output feature `q`:
    `(relu (relu h · W1ᵀ + b1) · W2ᵀ + b2) q`. -/
def mlp (h : Fin 64 → EReal) (W1 W2 : Fin 64 → Fin 64 → EReal) (b1 b2 : Fin 64 → EReal) (q : Fin 64) : EReal :=
  (∑ k : Fin 64, max ((∑ j : Fin 64, max (h j) 0 * W1 k j) + b1 k) 0 * W2 q k) + b2 q

/-- The f32 word of one denotes the real number one. -/
theorem ofBits_one : Ideal.ofBits .f32 0x3F800000#32 = 1 := by
  simp [Ideal.ofBits, Ideal.ieee, -EReal.coe_mul]; norm_num

/-- Multiplying by the reciprocal of `max e 1` is dividing by it: the divisor is at least one, hence
    not zero, and off zero the ideal quotient is the product with the inverse. -/
theorem mean_law (a e : EReal) : a * Ideal.div 1 (max e 1) = Ideal.div a (max e 1) := by
  have h : max e 1 ≠ 0 := (lt_of_lt_of_le zero_lt_one (le_max_right e 1)).ne'
  unfold Ideal.div
  rw [if_neg h, if_neg h, one_mul]

end Cert.Sage

end
-- ==== Proof.KernelPay.lean ====
/-
  What one grid point of each kernel computes, read at an element of its output block.

  Both bodies work on a block of 5000 rows. At row `r` and output feature `q` the first body's
  stored value is the perceptron of the layer's linear combination of that row of its two row
  blocks, the second body's the linear combination itself: every matrix product against the zero
  accumulator is a sum over the 64 input features, a transposed weight block read at `(k, q)` is the
  weight at `(q, k)`, a one-row bias broadcast down the block is the bias at `q`, and a change of
  float format does nothing on the extended reals.
-/
import proofs.«166979_j22385369547049_1_alg».proof.Proof.Gen.KernelIdeal.Skeleton
import proofs.«166979_j22385369547049_1_alg».proof.Proof.SageSpec
import Idealize.ShloMosaic.Lib.Pipeline.Value
import Idealize.ShloMosaic.Lib.ValueIdx
import Idealize.ShloMosaic.PureOps.Ideal.Laws

noncomputable section

open scoped BigOperators
open Idealize.ShloMosaic Idealize.ShloMosaic.ValueIdx Idealize.ShloMosaic.TcCoe

namespace Cert.KernelIdeal.Pay

open Cert.KernelIdeal Cert.KernelIdeal.Gen Cert.Sage

/-- The row coordinate of the left operand's index is the output's row. -/
theorem lhs0 (i : S5000x64.Idx) (c : dot_S5000x64_S64x64_S5000x64_1_0_0_1_n_n.contr.Idx) :
    (dot_S5000x64_S64x64_S5000x64_1_0_0_1_n_n.lhsIdx i c 0).val = (i 0).val := by
  unfold DotDims.lhsIdx
  rw [dif_neg (show ¬(0 : Fin S5000x64.rank) ∈ dot_S5000x64_S64x64_S5000x64_1_0_0_1_n_n.lhsBatch by decide),
    dif_pos (show (0 : Fin S5000x64.rank) ∈ dot_S5000x64_S64x64_S5000x64_1_0_0_1_n_n.lhsNonContracting by decide)]
  rfl

/-- The column coordinate of the right operand's index is the output's column. -/
theorem rhs1 (i : S5000x64.Idx) (c : dot_S5000x64_S64x64_S5000x64_1_0_0_1_n_n.contr.Idx) :
    (dot_S5000x64_S64x64_S5000x64_1_0_0_1_n_n.rhsIdx i c 1).val = (i 1).val := by
  unfold DotDims.rhsIdx
  rw [dif_neg (show ¬(1 : Fin S64x64.rank) ∈ dot_S5000x64_S64x64_S5000x64_1_0_0_1_n_n.rhsBatch by decide),
    dif_pos (show (1 : Fin S64x64.rank) ∈ dot_S5000x64_S64x64_S5000x64_1_0_0_1_n_n.rhsNonContracting by decide)]
  rfl

/-- A block of rows times a 64×64 matrix, into the zero accumulator, at `(r, q)`: the sum over the
    contracted feature `k` of the row's entry `k` times the matrix's entry `(k, q)`. -/
theorem mm_apply {φ₁ φ₂ : FTy} (l : FVec Ideal S5000x64 φ₁) (w : FVec Ideal S64x64 φ₂) (r : Fin 5000) (q : Fin 64) :
    matmul dot_S5000x64_S64x64_S5000x64_1_0_0_1_n_n none l w (constant S5000x64 .f32 0x00000000#32) (ix2 r q)
      = ∑ k : Fin 64, l (ix2 r k) * w (ix2 k q) := by
  simp only [matmul]
  rw [Ideal.matmul_constant_zero_apply,
    ← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 r q)
      ((contrEquiv1 dot_S5000x64_S64x64_S5000x64_1_0_0_1_n_n 64 rfl rfl).symm k) = ix2 r k :=
    funext fun a => Fin.ext (by
      match a with
      | ⟨0, _⟩ => exact lhs0 _ _
      | ⟨1, _⟩ => exact (dot_S5000x64_S64x64_S5000x64_1_0_0_1_n_n.lhsIdx_val_of_single rfl _ _).trans hk)
  have er : dot_S5000x64_S64x64_S5000x64_1_0_0_1_n_n.rhsIdx (ix2 r q)
      ((contrEquiv1 dot_S5000x64_S64x64_S5000x64_1_0_0_1_n_n 64 rfl rfl).symm k) = ix2 k q :=
    funext fun a => Fin.ext (by
      match a with
      | ⟨0, _⟩ => exact (dot_S5000x64_S64x64_S5000x64_1_0_0_1_n_n.rhsIdx_val_of_single rfl _ _).trans hk
      | ⟨1, _⟩ => exact rhs1 _ _)
  rw [el, er]

/-- A transposed 64×64 block at `(k, q)` is the block at `(q, k)`, for the permutation that swaps the two axes. -/
theorem tr_apply {φ : FTy} (perm : List (Fin S64x64.rank)) (hp : perm = [1, 0]) (w : FVec Ideal S64x64 φ)
    (h : S64x64.Transposes perm S64x64) (k q : Fin 64) :
    transpose S64x64 perm w h (ix2 k q) = w (ix2 q k) := by
  subst hp
  exact transpose_apply [1, 0] w h (ix2 k q) (ix2 q k) (fun b => by
    match b with
    | ⟨0, _⟩ => rfl
    | ⟨1, _⟩ => rfl)

/-- A one-row bias broadcast down the block, at `(r, q)`, is the bias at `q`. -/
theorem bias_apply {φ : FTy} (b : FVec Ideal S1x64 φ) (h2 : S1x64.Broadcasts S5000x64)
    (r : Fin 5000) (q : Fin 64) :
    broadcastTo S5000x64 b h2 (ix2 r q) = b (ix2 0 q) := by
  exact broadcastTo_apply b h2 (ix2 r q) (ix2 0 q) (fun a => by
    match a with
    | ⟨0, _⟩ => rfl
    | ⟨1, _⟩ => rfl)

/-- The second kernel's stored value at row `r`, feature `q`: the layer's linear combination of row `r`
    of the mean block `v3` and of the feature block `v0`. -/
theorem stage2_apply (v0 v3 : Vec Ideal S5000x64 .f32) (v6 v8 : Vec Ideal S64x64 .f32) (v12 : Vec Ideal S1x64 .f32)
    (r : Fin 5000) (q : Fin 64) :
    k1_pay1 (F := Ideal) v0 v3 v6 v8 v12 (ix2 r q)
      = lin (row v3 r) (row v0 r) (mat v6) (mat v8) (brow v12) q := by
  unfold k1_pay1 lin row mat brow
  simp only [addf_apply, truncf_apply, mm_apply, tr_apply, bias_apply, shapeCast_self]

/-- The first kernel's stored value at row `r`, feature `q`: the perceptron of the layer's linear
    combination of row `r` of the mean block `v2` and of the feature block `v0`. -/
theorem stage1_apply (v0 v2 : Vec Ideal S5000x64 .f32) (v5 v7 : Vec Ideal S64x64 .f32) (v11 : Vec Ideal S1x64 .f32)
    (v21 : Vec Ideal S64x64 .f32) (v25 : Vec Ideal S1x64 .f32) (v32 : Vec Ideal S64x64 .f32) (v36 : Vec Ideal S1x64 .f32)
    (r : Fin 5000) (q : Fin 64) :
    k0_pay1 (F := Ideal) (k0_pay2 v0 v2 v5 v7 v11 v21 v25 v32) v36 (ix2 r q)
      = mlp (lin (row v2 r) (row v0 r) (mat v5) (mat v7) (brow v11)) (mat v21) (mat v32) (brow v25) (brow v36) q := by
  unfold k0_pay1 k0_pay2 mlp lin row mat brow
  simp only [addf_apply, maximumf_apply, truncf_apply, mm_apply, tr_apply, bias_apply, shapeCast_self, broadcast_apply,
    Ideal.ofBits_def, Ideal.ofBits_zero_f32]

end Cert.KernelIdeal.Pay

end
-- ==== Proof.KernelRegion0.lean ====
/-
  The first call's output array as one function of the arrays its windows are cut from.

  The grid has 20 points; point `t` works on rows `5000 t … 5000 t + 4999` of the two row arrays and on
  the whole of every weight and bias array, and writes back the same rows of the output. So the
  output array ends holding, at `(p, q)`, the perceptron of the layer's linear combination of row `p`
  of the mean array and of the feature array: each point's written block is that function read
  through the block, and the 20 blocks cover the 100000 rows.
-/
import proofs.«166979_j22385369547049_1_alg».proof.Proof.Gen.KernelIdeal.Frame
import proofs.«166979_j22385369547049_1_alg».proof.Proof.KernelPay

set_option maxRecDepth 16384

noncomputable section

open scoped BigOperators
open Idealize.ShloMosaic Idealize.ShloMosaic.ValueIdx Idealize.ShloMosaic.TcCoe Idealize.SL.Sem
open Idealize.ShloMosaic.Pipeline (Dat Cfg Window)

namespace Cert.KernelIdeal.Reg0

open Cert.KernelIdeal Cert.KernelIdeal.Gen Cert.Sage

variable (V : (c : Dev nD) → (b : Ref sig .tc) → Buf (Elt Ideal) ((c : Thread nD τ).loc b))

theorem hz : (![0, 0] : Fin 2 → Nat) = fun _ => 0 := funext fun a => by fin_cases a <;> rfl

/-- The whole-array function: row by row, the perceptron of the linear combination. -/
def G (x a : S100000x64.Idx → EReal) (Wl : S64x64.Idx → EReal) (bl : S1x64.Idx → EReal) (Wr W1 : S64x64.Idx → EReal)
    (b1 : S1x64.Idx → EReal) (W2 : S64x64.Idx → EReal) (b2 : S1x64.Idx → EReal) : S100000x64.Idx → EReal :=
  fun i => mlp (lin (row a (i 0)) (row x (i 0)) (mat Wl) (mat Wr) (brow bl)) (mat W1) (mat W2) (brow b1) (brow b2) (i 1)

theorem tlt (t : Fin cfg0.N) : t.val < 20 := lt_of_lt_of_eq t.isLt N_0

/-- The index maps over the grid: a row window's block index is the point, every other one is zero. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = t.val ∧ win0_9.index t (1 : Fin 2) = 0 :=
  (by decide +kernel : ∀ t : Fin grid0.N, _)

/-- The global row of local row `r` of point `t`'s block. -/
def grow (t : Fin cfg0.N) (r : Fin 5000) : Fin 100000 := ⟨t.val * 5000 + r.val, by have := tlt t; have := r.isLt; omega⟩

section Reads
variable (c : Dev nD) (t : Fin cfg0.N)

theorem rd0 (r : Fin 5000) (k : Fin 64) : iblk0 V c 0 t (ix2 r k) = V c main_arg0 (ix2 (grow t r) k) := by
  obtain ⟨e0, e1, -⟩ := idx_facts t
  show V c main_arg0 (((cfg0.win 0).blk t).view.emb (ix2 r k)) = _
  refine congrArg (V c main_arg0) (funext fun a => Fin.ext ?_)
  match a with
  | ⟨0, _⟩ => show win0_0.index t (0 : Fin 2) * 5000 + 1 * r.val = t.val * 5000 + r.val; omega
  | ⟨1, _⟩ => show win0_0.index t (1 : Fin 2) * 64 + 1 * k.val = k.val; omega

theorem rd1 (r : Fin 5000) (k : Fin 64) : iblk0 V c 1 t (ix2 r k) = V c main_v24 (ix2 (grow t r) k) := by
  obtain ⟨-, -, e0, e1, -⟩ := idx_facts t
  show V c main_v24 (((cfg0.win 1).blk t).view.emb (ix2 r k)) = _
  refine congrArg (V c main_v24) (funext fun a => Fin.ext ?_)
  match a with
  | ⟨0, _⟩ => show win0_1.index t (0 : Fin 2) * 5000 + 1 * r.val = t.val * 5000 + r.val; omega
  | ⟨1, _⟩ => show win0_1.index t (1 : Fin 2) * 64 + 1 * k.val = k.val; omega

theorem rd2 (q k : Fin 64) : iblk0 V c 2 t (ix2 q k) = V c main_arg2 (ix2 q k) := by
  obtain ⟨-, -, -, -, e0, e1, -⟩ := idx_facts t
  show V c main_arg2 (((cfg0.win 2).blk t).view.emb (ix2 q k)) = _
  refine congrArg (V c main_arg2) (funext fun a => Fin.ext ?_)
  match a with
  | ⟨0, _⟩ => show win0_2.index t (0 : Fin 2) * 64 + 1 * q.val = q.val; omega
  | ⟨1, _⟩ => show win0_2.index t (1 : Fin 2) * 64 + 1 * k.val = k.val; omega

theorem rd3 (q : Fin 64) : iblk0 V c 3 t (ix2 0 q) = V c main_v25 (ix2 0 q) := by
  obtain ⟨-, -, -, -, -, -, e0, e1, -⟩ := idx_facts t
  show V c main_v25 (((cfg0.win 3).blk t).view.emb (ix2 0 q)) = _
  refine congrArg (V c main_v25) (funext fun a => Fin.ext ?_)
  match a with
  | ⟨0, _⟩ => show win0_3.index t (0 : Fin 2) * 1 + 1 * 0 = 0; omega
  | ⟨1, _⟩ => show win0_3.index t (1 : Fin 2) * 64 + 1 * q.val = q.val; omega

theorem rd4 (q k : Fin 64) : iblk0 V c 4 t (ix2 q k) = V c main_arg4 (ix2 q k) := by
  obtain ⟨-, -, -, -, -, -, -, -, e0, e1, -⟩ := idx_facts t
  show V c main_arg4 (((cfg0.win 4).blk t).view.emb (ix2 q k)) = _
  refine congrArg (V c main_arg4) (funext fun a => Fin.ext ?_)
  match a with
  | ⟨0, _⟩ => show win0_4.index t (0 : Fin 2) * 64 + 1 * q.val = q.val; omega
  | ⟨1, _⟩ => show win0_4.index t (1 : Fin 2) * 64 + 1 * k.val = k.val; omega

theorem rd5 (q k : Fin 64) : iblk0 V c 5 t (ix2 q k) = V c main_arg5 (ix2 q k) := by
  obtain ⟨-, -, -, -, -, -, -, -, -, -, e0, e1, -⟩ := idx_facts t
  show V c main_arg5 (((cfg0.win 5).blk t).view.emb (ix2 q k)) = _
  refine congrArg (V c main_arg5) (funext fun a => Fin.ext ?_)
  match a with
  | ⟨0, _⟩ => show win0_5.index t (0 : Fin 2) * 64 + 1 * q.val = q.val; omega
  | ⟨1, _⟩ => show win0_5.index t (1 : Fin 2) * 64 + 1 * k.val = k.val; omega

theorem rd6 (q : Fin 64) : iblk0 V c 6 t (ix2 0 q) = V c main_v26 (ix2 0 q) := by
  obtain ⟨-, -, -, -, -, -, -, -, -, -, -, -, e0, e1, -⟩ := idx_facts t
  show V c main_v26 (((cfg0.win 6).blk t).view.emb (ix2 0 q)) = _
  refine congrArg (V c main_v26) (funext fun a => Fin.ext ?_)
  match a with
  | ⟨0, _⟩ => show win0_6.index t (0 : Fin 2) * 1 + 1 * 0 = 0; omega
  | ⟨1, _⟩ => show win0_6.index t (1 : Fin 2) * 64 + 1 * q.val = q.val; omega

theorem rd7 (q k : Fin 64) : iblk0 V c 7 t (ix2 q k) = V c main_arg7 (ix2 q k) := by
  obtain ⟨-, -, -, -, -, -, -, -, -, -, -, -, -, -, e0, e1, -⟩ := idx_facts t
  show V c main_arg7 (((cfg0.win 7).blk t).view.emb (ix2 q k)) = _
  refine congrArg (V c main_arg7) (funext fun a => Fin.ext ?_)
  match a with
  | ⟨0, _⟩ => show win0_7.index t (0 : Fin 2) * 64 + 1 * q.val = q.val; omega
  | ⟨1, _⟩ => show win0_7.index t (1 : Fin 2) * 64 + 1 * k.val = k.val; omega

theorem rd8 (q : Fin 64) : iblk0 V c 8 t (ix2 0 q) = V c main_v27 (ix2 0 q) := by
  obtain ⟨-, -, -, -, -, -, -, -, -, -, -, -, -, -, -, -, e0, e1, -⟩ := idx_facts t
  show V c main_v27 (((cfg0.win 8).blk t).view.emb (ix2 0 q)) = _
  refine congrArg (V c main_v27) (funext fun a => Fin.ext ?_)
  match a with
  | ⟨0, _⟩ => show win0_8.index t (0 : Fin 2) * 1 + 1 * 0 = 0; omega
  | ⟨1, _⟩ => show win0_8.index t (1 : Fin 2) * 64 + 1 * q.val = q.val; omega

/-- Where local index `(r, q)` of point `t`'s output block sits in the output array. -/
theorem emb9 (r : Fin 5000) (q : Fin 64) : ((cfg0.win 9).blk t).view.emb (ix2 r q) = ix2 (grow t r) q := by
  obtain ⟨-, -, -, -, -, -, -, -, -, -, -, -, -, -, -, -, -, -, e0, e1⟩ := idx_facts t
  refine funext fun a => Fin.ext ?_
  match a with
  | ⟨0, _⟩ => show win0_9.index t (0 : Fin 2) * 5000 + 1 * r.val = t.val * 5000 + r.val; omega
  | ⟨1, _⟩ => show win0_9.index t (1 : Fin 2) * 64 + 1 * q.val = q.val; omega

end Reads

/-- What point `t` writes back is block `t` of `G` of the arrays as the call finds them. -/
theorem flushed_eq (c : Dev nD) (t : Fin cfg0.N) :
    (dat0 V c).flushed 9 t = ((cfg0.win 9).blk t).view.read (Elt Ideal)
      (G (V c main_arg0) (V c main_v24) (V c main_arg2) (V c main_v25) (V c main_arg4) (V c main_arg5) (V c main_v26)
        (V c main_arg7) (V c main_v27)) := by
  show (cfg0.win 9).cut (grid0.coords t) ((dat0 V c).after 9 t) = _
  rw [after0_9]
  unfold out0_9
  rw [View.canon_unit_zero hz]
  simp only [View.ld_unit_zero (S := S5000x64) hz, View.ld_unit_zero (S := S64x64) hz, View.ld_unit_zero (S := S1x64) hz]
  funext j
  obtain ⟨r, q, rfl⟩ : ∃ (r : Fin 5000) (q : Fin 64), j = ix2 r q := ⟨j 0, j 1, eq_ix2 j⟩
  show k0_pay1 (F := Ideal) (k0_pay2 (iblk0 V c 0 t) (iblk0 V c 1 t) (iblk0 V c 2 t) (iblk0 V c 4 t) (iblk0 V c 3 t)
      (iblk0 V c 5 t) (iblk0 V c 6 t) (iblk0 V c 7 t)) (iblk0 V c 8 t) (ix2 r q)
    = G (V c main_arg0) (V c main_v24) (V c main_arg2) (V c main_v25) (V c main_arg4) (V c main_arg5) (V c main_v26)
        (V c main_arg7) (V c main_v27) (((cfg0.win 9).blk t).view.emb (ix2 r q))
  rw [emb9 t r q]
  refine (Pay.stage1_apply _ _ _ _ _ _ _ _ _ r q).trans ?_
  have h0 : row (iblk0 V c 0 t) r = row (V c main_arg0) (grow t r) := funext fun k => rd0 V c t r k
  have h1 : row (iblk0 V c 1 t) r = row (V c main_v24) (grow t r) := funext fun k => rd1 V c t r k
  have h2 : mat (iblk0 V c 2 t) = mat (V c main_arg2) := funext fun q => funext fun k => rd2 V c t q k
  have h3 : brow (iblk0 V c 3 t) = brow (V c main_v25) := funext fun q => rd3 V c t q
  have h4 : mat (iblk0 V c 4 t) = mat (V c main_arg4) := funext fun q => funext fun k => rd4 V c t q k
  have h5 : mat (iblk0 V c 5 t) = mat (V c main_arg5) := funext fun q => funext fun k => rd5 V c t q k
  have h6 : brow (iblk0 V c 6 t) = brow (V c main_v26) := funext fun q => rd6 V c t q
  have h7 : mat (iblk0 V c 7 t) = mat (V c main_arg7) := funext fun q => funext fun k => rd7 V c t q k
  have h8 : brow (iblk0 V c 8 t) = brow (V c main_v27) := funext fun q => rd8 V c t q
  rw [h0, h1, h2, h3, h4, h5, h6, h7, h8]
  rfl

/-- An index of the output array is in point `t`'s block iff each coordinate is in the block's range. -/
theorem mem_blk (t : Fin cfg0.N) (i : S100000x64.Idx) :
    i ∈ ((cfg0.win 9).blk t).view.set ↔ ∀ a : Fin 2, win0_9.index t a * S5000x64.size a ≤ (i a).val
      ∧ (i a).val < win0_9.index t a * S5000x64.size a + S5000x64.size a := by
  show i ∈ ((View.whole main_v28).slice (win0_9.rect t)).set ↔ _
  rw [View.set_slice_whole, Rect.mem_set_unit]
  exact Iff.rfl

/-- Every row of the output array lies in the block of the point `row / 5000`. -/
theorem cover (i : S100000x64.Idx) :
    ∃ t : Fin cfg0.N, (cfg0.win 9).flush t = true ∧ i ∈ ((cfg0.win 9).blk t).view.set := by
  have hi0 : (i 0).val < 100000 := (i 0).isLt
  have hi1 : (i 1).val < 64 := (i 1).isLt
  let t : Fin cfg0.N := ⟨(i 0).val / 5000, by rw [show cfg0.N = 20 from N_0]; omega⟩
  obtain ⟨-, -, -, -, -, -, -, -, -, -, -, -, -, -, -, -, -, -, e0, e1⟩ := idx_facts t
  have et : t.val = (i 0).val / 5000 := rfl
  refine ⟨t, flush0_9 t, ?_⟩
  rw [mem_blk]
  intro a
  match a with
  | ⟨0, _⟩ => show win0_9.index t (0 : Fin 2) * 5000 ≤ (i 0).val ∧ (i 0).val < win0_9.index t (0 : Fin 2) * 5000 + 5000; omega
  | ⟨1, _⟩ => show win0_9.index t (1 : Fin 2) * 64 ≤ (i 1).val ∧ (i 1).val < win0_9.index t (1 : Fin 2) * 64 + 64; omega

/-- The output array after the call. -/
theorem final (c : Dev nD) : (dat0 V c).arrAt 9 cfg0.N
    = G (V c main_arg0) (V c main_v24) (V c main_arg2) (V c main_v25) (V c main_arg4) (V c main_arg5) (V c main_v26)
        (V c main_arg7) (V c main_v27) :=
  (dat0 V c).arrAt_eq_of_cover 9 _ (fun t _ => flushed_eq V c t) cover

end Cert.KernelIdeal.Reg0

end
-- ==== Proof.KernelRegion1.lean ====
/-
  The second call's output array as one function of the arrays its windows are cut from.

  As in the first call the grid has 20 points, point `t` working on rows `5000 t … 5000 t + 4999` of
  the two row arrays and on the whole of the weight and bias arrays. The output array ends
  holding, at `(p, q)`, the layer's linear combination of row `p` of the mean array and of the
  feature array.
-/
import proofs.«166979_j22385369547049_1_alg».proof.Proof.Gen.KernelIdeal.Frame
import proofs.«166979_j22385369547049_1_alg».proof.Proof.KernelPay

set_option maxRecDepth 16384

noncomputable section

open scoped BigOperators
open Idealize.ShloMosaic Idealize.ShloMosaic.ValueIdx Idealize.ShloMosaic.TcCoe Idealize.SL.Sem
open Idealize.ShloMosaic.Pipeline (Dat Cfg Window)

namespace Cert.KernelIdeal.Reg1

open Cert.KernelIdeal Cert.KernelIdeal.Gen Cert.Sage

variable (V : (c : Dev nD) → (b : Ref sig .tc) → Buf (Elt Ideal) ((c : Thread nD τ).loc b))

theorem hz : (![0, 0] : Fin 2 → Nat) = fun _ => 0 := funext fun a => by fin_cases a <;> rfl

/-- The whole-array function: row by row, the linear combination. -/
def G (h a : S100000x64.Idx → EReal) (Wl : S64x64.Idx → EReal) (bl : S1x64.Idx → EReal) (Wr : S64x64.Idx → EReal) :
    S100000x64.Idx → EReal :=
  fun i => lin (row a (i 0)) (row h (i 0)) (mat Wl) (mat Wr) (brow bl) (i 1)

theorem tlt (t : Fin cfg1.N) : t.val < 20 := lt_of_lt_of_eq t.isLt N_1

/-- The index maps over the grid: a row window's block index is the point, every other one is zero. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 ∧ True :=
  (by decide +kernel : ∀ t : Fin grid1.N, _)

/-- The global row of local row `r` of point `t`'s block. -/
def grow (t : Fin cfg1.N) (r : Fin 5000) : Fin 100000 := ⟨t.val * 5000 + r.val, by have := tlt t; have := r.isLt; omega⟩

section Reads
variable (c : Dev nD) (t : Fin cfg1.N)

theorem rd0 (r : Fin 5000) (k : Fin 64) : iblk1 V c 0 t (ix2 r k) = V c main_v28 (ix2 (grow t r) k) := by
  obtain ⟨e0, e1, -⟩ := idx_facts t
  show V c main_v28 (((cfg1.win 0).blk t).view.emb (ix2 r k)) = _
  refine congrArg (V c main_v28) (funext fun a => Fin.ext ?_)
  match a with
  | ⟨0, _⟩ => show win1_0.index t (0 : Fin 2) * 5000 + 1 * r.val = t.val * 5000 + r.val; omega
  | ⟨1, _⟩ => show win1_0.index t (1 : Fin 2) * 64 + 1 * k.val = k.val; omega

theorem rd1 (r : Fin 5000) (k : Fin 64) : iblk1 V c 1 t (ix2 r k) = V c main_v41 (ix2 (grow t r) k) := by
  obtain ⟨-, -, e0, e1, -⟩ := idx_facts t
  show V c main_v41 (((cfg1.win 1).blk t).view.emb (ix2 r k)) = _
  refine congrArg (V c main_v41) (funext fun a => Fin.ext ?_)
  match a with
  | ⟨0, _⟩ => show win1_1.index t (0 : Fin 2) * 5000 + 1 * r.val = t.val * 5000 + r.val; omega
  | ⟨1, _⟩ => show win1_1.index t (1 : Fin 2) * 64 + 1 * k.val = k.val; omega

theorem rd2 (q k : Fin 64) : iblk1 V c 2 t (ix2 q k) = V c main_arg9 (ix2 q k) := by
  obtain ⟨-, -, -, -, e0, e1, -⟩ := idx_facts t
  show V c main_arg9 (((cfg1.win 2).blk t).view.emb (ix2 q k)) = _
  refine congrArg (V c main_arg9) (funext fun a => Fin.ext ?_)
  match a with
  | ⟨0, _⟩ => show win1_2.index t (0 : Fin 2) * 64 + 1 * q.val = q.val; omega
  | ⟨1, _⟩ => show win1_2.index t (1 : Fin 2) * 64 + 1 * k.val = k.val; omega

theorem rd3 (q : Fin 64) : iblk1 V c 3 t (ix2 0 q) = V c main_v42 (ix2 0 q) := by
  obtain ⟨-, -, -, -, -, -, e0, e1, -⟩ := idx_facts t
  show V c main_v42 (((cfg1.win 3).blk t).view.emb (ix2 0 q)) = _
  refine congrArg (V c main_v42) (funext fun a => Fin.ext ?_)
  match a with
  | ⟨0, _⟩ => show win1_3.index t (0 : Fin 2) * 1 + 1 * 0 = 0; omega
  | ⟨1, _⟩ => show win1_3.index t (1 : Fin 2) * 64 + 1 * q.val = q.val; omega

theorem rd4 (q k : Fin 64) : iblk1 V c 4 t (ix2 q k) = V c main_arg11 (ix2 q k) := by
  obtain ⟨-, -, -, -, -, -, -, -, e0, e1, -⟩ := idx_facts t
  show V c main_arg11 (((cfg1.win 4).blk t).view.emb (ix2 q k)) = _
  refine congrArg (V c main_arg11) (funext fun a => Fin.ext ?_)
  match a with
  | ⟨0, _⟩ => show win1_4.index t (0 : Fin 2) * 64 + 1 * q.val = q.val; omega
  | ⟨1, _⟩ => show win1_4.index t (1 : Fin 2) * 64 + 1 * k.val = k.val; omega

/-- Where local index `(r, q)` of point `t`'s output block sits in the output array. -/
theorem emb5 (r : Fin 5000) (q : Fin 64) : ((cfg1.win 5).blk t).view.emb (ix2 r q) = ix2 (grow t r) q := by
  obtain ⟨-, -, -, -, -, -, -, -, -, -, e0, e1, -⟩ := idx_facts t
  refine funext fun a => Fin.ext ?_
  match a with
  | ⟨0, _⟩ => show win1_5.index t (0 : Fin 2) * 5000 + 1 * r.val = t.val * 5000 + r.val; omega
  | ⟨1, _⟩ => show win1_5.index t (1 : Fin 2) * 64 + 1 * q.val = q.val; omega

end Reads

/-- What point `t` writes back is block `t` of `G` of the arrays as the call finds them. -/
theorem flushed_eq (c : Dev nD) (t : Fin cfg1.N) :
    (dat1 V c).flushed 5 t = ((cfg1.win 5).blk t).view.read (Elt Ideal)
      (G (V c main_v28) (V c main_v41) (V c main_arg9) (V c main_v42) (V c main_arg11)) := by
  show (cfg1.win 5).cut (grid1.coords t) ((dat1 V c).after 5 t) = _
  rw [after1_5]
  unfold out1_5
  rw [View.canon_unit_zero hz]
  simp only [View.ld_unit_zero (S := S5000x64) hz, View.ld_unit_zero (S := S64x64) hz, View.ld_unit_zero (S := S1x64) hz]
  funext j
  obtain ⟨r, q, rfl⟩ : ∃ (r : Fin 5000) (q : Fin 64), j = ix2 r q := ⟨j 0, j 1, eq_ix2 j⟩
  show k1_pay1 (F := Ideal) (iblk1 V c 0 t) (iblk1 V c 1 t) (iblk1 V c 2 t) (iblk1 V c 4 t) (iblk1 V c 3 t) (ix2 r q)
    = G (V c main_v28) (V c main_v41) (V c main_arg9) (V c main_v42) (V c main_arg11)
        (((cfg1.win 5).blk t).view.emb (ix2 r q))
  rw [emb5 t r q]
  refine (Pay.stage2_apply _ _ _ _ _ r q).trans ?_
  have h0 : row (iblk1 V c 0 t) r = row (V c main_v28) (grow t r) := funext fun k => rd0 V c t r k
  have h1 : row (iblk1 V c 1 t) r = row (V c main_v41) (grow t r) := funext fun k => rd1 V c t r k
  have h2 : mat (iblk1 V c 2 t) = mat (V c main_arg9) := funext fun q => funext fun k => rd2 V c t q k
  have h3 : brow (iblk1 V c 3 t) = brow (V c main_v42) := funext fun q => rd3 V c t q
  have h4 : mat (iblk1 V c 4 t) = mat (V c main_arg11) := funext fun q => funext fun k => rd4 V c t q k
  rw [h0, h1, h2, h3, h4]
  rfl

/-- An index of the output array is in point `t`'s block iff each coordinate is in the block's range. -/
theorem mem_blk (t : Fin cfg1.N) (i : S100000x64.Idx) :
    i ∈ ((cfg1.win 5).blk t).view.set ↔ ∀ a : Fin 2, win1_5.index t a * S5000x64.size a ≤ (i a).val
      ∧ (i a).val < win1_5.index t a * S5000x64.size a + S5000x64.size a := by
  show i ∈ ((View.whole main_v43).slice (win1_5.rect t)).set ↔ _
  rw [View.set_slice_whole, Rect.mem_set_unit]
  exact Iff.rfl

/-- Every row of the output array lies in the block of the point `row / 5000`. -/
theorem cover (i : S100000x64.Idx) :
    ∃ t : Fin cfg1.N, (cfg1.win 5).flush t = true ∧ i ∈ ((cfg1.win 5).blk t).view.set := by
  have hi0 : (i 0).val < 100000 := (i 0).isLt
  have hi1 : (i 1).val < 64 := (i 1).isLt
  let t : Fin cfg1.N := ⟨(i 0).val / 5000, by rw [show cfg1.N = 20 from N_1]; omega⟩
  obtain ⟨-, -, -, -, -, -, -, -, -, -, e0, e1, -⟩ := idx_facts t
  have et : t.val = (i 0).val / 5000 := rfl
  refine ⟨t, flush1_5 t, ?_⟩
  rw [mem_blk]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 64 ≤ (i 1).val ∧ (i 1).val < win1_5.index t (1 : Fin 2) * 64 + 64; omega

/-- The output array after the call. -/
theorem final (c : Dev nD) : (dat1 V c).arrAt 5 cfg1.N
    = G (V c main_v28) (V c main_v41) (V c main_arg9) (V c main_v42) (V c main_arg11) :=
  (dat1 V c).arrAt_eq_of_cover 5 _ (fun t _ => flushed_eq V c t) cover

end Cert.KernelIdeal.Reg1

end
-- ==== Proof.KernelHost.lean ====
/-
  What the host operations around the two calls compute, as terms of the argument arrays.

  Before the first call the program slices the edge list into sources and destinations, counts each
  node's in-degree by a scattered sum of ones, gathers the source rows of the feature array and
  scatters their sum onto the destinations, and multiplies by the reciprocal of `max degree 1`;
  between the calls it does the same to the first call's output. Here each array a call's window is
  cut from is read back as such a term; the gather and the scattered sum stay whole-array
  operations that are never opened.
-/
import proofs.«166979_j22385369547049_1_alg».proof.Proof.Gen.KernelIdeal.Frame
import proofs.«166979_j22385369547049_1_alg».proof.Proof.KernelRegion0
import proofs.«166979_j22385369547049_1_alg».proof.Proof.KernelRegion1
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.HostV

open Cert.KernelIdeal Cert.KernelIdeal.Gen

/-- The edge sources as one column. -/
def src1 (e : IVec S2x3200000 32) : IVec S3200000 32 :=
  shapeCast _ (extractStridedSlice S1x3200000 ![0, 0] e slices_S2x3200000_S1x3200000_0_0) shapeCasts_S1x3200000_S3200000

/-- The edge destinations as one column. -/
def dst1 (e : IVec S2x3200000 32) : IVec S3200000 32 :=
  shapeCast _ (extractStridedSlice S1x3200000 ![1, 0] e slices_S2x3200000_S1x3200000_1_0) shapeCasts_S1x3200000_S3200000

/-- The gather's index column from a source column: a negative index wraps once. -/
def wrapIdx (s : IVec S3200000 32) : IVec S3200000x1 32 :=
  broadcastInDim S3200000x1 ![0] bcast_S3200000_S3200000x1_0
    (select (cmpi .slt s (broadcastInDim S3200000 ![] bcast_S_S3200000 (constantI S_ 32 0#32)))
      (addi s (broadcastInDim S3200000 ![] bcast_S_S3200000 (constantI S_ 32 100000#32))) s)

/-- The scatter's index column from a destination column. -/
def colIdx (d : IVec S3200000 32) : IVec S3200000x1 32 :=
  broadcastInDim S3200000x1 ![0] bcast_S3200000_S3200000x1_0 d

/-- The sum over in-edges of the source rows of `h`. -/
def agg (s d : IVec S3200000 32) (h : FVec Ideal S100000x64 .f32) :
    FVec Ideal S100000x64 .f32 :=
  Host.scatterAdd (F := Ideal) scatter_S100000x64_S3200000x1_S3200000x64_1_0_0_1
    (broadcastInDim S100000x64 ![] bcast_S_S100000x64 (constant (F := Ideal) S_ .f32 0x00000000#32)) (colIdx d)
    (Host.gather gather_S100000x64_S3200000x1_S3200000x64_1_0_n_n_0_1_164 h (wrapIdx s))

/-- The constant one per node. -/
def ones : FVec Ideal S100000 .f32 :=
  broadcastInDim S100000 ![] bcast_S_S100000 (constant (F := Ideal) S_ .f32 0x3F800000#32)

/-- `max in-degree 1` per node. -/
def dmax (d : IVec S3200000 32) : FVec Ideal S100000 .f32 :=
  maximumf (F := Ideal) (Host.scatterAdd (F := Ideal) scatter_S100000_S3200000x1_S3200000_n_0_0_1
    (broadcastInDim S100000 ![] bcast_S_S100000 (constant (F := Ideal) S_ .f32 0x00000000#32)) (colIdx d)
    (broadcastInDim S3200000 ![] bcast_S_S3200000 (constant (F := Ideal) S_ .f32 0x3F800000#32))) ones

/-- The reciprocal of `max in-degree 1` per node. -/
def dinv (d : IVec S3200000 32) : FVec Ideal S100000 .f32 :=
  Host.divf (F := Ideal) ones (dmax d)

/-- A per-node value spread along the 64 features. -/
def spread (f : FVec Ideal S100000 .f32) : FVec Ideal S100000x64 .f32 :=
  broadcastInDim S100000x64 ![0, 1] bcast_S100000x1_S100000x64_0_1 (broadcastInDim S100000x1 ![0] bcast_S100000_S100000x1_0 f)

/-- A bias vector as a one-row array. -/
def asRow (b : FVec Ideal S64 .f32) : FVec Ideal S1x64 .f32 :=
  shapeCast _ b shapeCasts_S64_S1x64

variable (m : (ℓ : Loc nD τ sig) → Buf (Elt Ideal) ℓ) (ρ : Dev nD → PrngReg)

/-- A buffer no operation of a stretch writes holds after it what it held before. -/
macro "not_written" ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes,
        StableHlo.binaryIndexed_writes, Finset.mem_singleton]
      repeat' apply And.intro
      all_goals exact StableHlo.devRef_ne_of_ne (by decide))))

section First
variable (c : Dev nD)

theorem W1_v1 : W1 m ρ c (Proc.devRef .tc main_v1) = src1 (m ((c : Thread nD τ).loc main_arg1)) := by
  show StableHlo.after hostOps0 (W0 m ρ c) (Proc.devRef .tc main_v1) = _
  after_results
  rfl

theorem W1_v3 : W1 m ρ c (Proc.devRef .tc main_v3) = dst1 (m ((c : Thread nD τ).loc main_arg1)) := by
  show StableHlo.after hostOps0 (W0 m ρ c) (Proc.devRef .tc main_v3) = _
  after_results
  rfl

theorem W1_v11 : W1 m ρ c (Proc.devRef .tc main_v11) = dinv (dst1 (m ((c : Thread nD τ).loc main_arg1))) := by
  show StableHlo.after hostOps0 (W0 m ρ c) (Proc.devRef .tc main_v11) = _
  after_results
  rfl

set_option maxHeartbeats 4000000 in
theorem W1_v24 : W1 m ρ c (Proc.devRef .tc main_v24)
    = mulf (F := Ideal) (agg (src1 (m ((c : Thread nD τ).loc main_arg1))) (dst1 (m ((c : Thread nD τ).loc main_arg1)))
        (m ((c : Thread nD τ).loc main_arg0))) (spread (dinv (dst1 (m ((c : Thread nD τ).loc main_arg1))))) := by
  show StableHlo.after hostOps0 (W0 m ρ c) (Proc.devRef .tc main_v24) = _
  after_results_simp
  rfl

theorem W1_v25 : W1 m ρ c (Proc.devRef .tc main_v25) = asRow (m ((c : Thread nD τ).loc main_arg3)) := by
  show StableHlo.after hostOps0 (W0 m ρ c) (Proc.devRef .tc main_v25) = _
  after_results
  rfl

theorem W1_v26 : W1 m ρ c (Proc.devRef .tc main_v26) = asRow (m ((c : Thread nD τ).loc main_arg6)) := by
  show StableHlo.after hostOps0 (W0 m ρ c) (Proc.devRef .tc main_v26) = _
  after_results
  rfl

theorem W1_v27 : W1 m ρ c (Proc.devRef .tc main_v27) = asRow (m ((c : Thread nD τ).loc main_arg8)) := by
  show StableHlo.after hostOps0 (W0 m ρ c) (Proc.devRef .tc main_v27) = _
  after_results
  rfl

theorem W1_arg (b : Ref sig .tc) (hb : (hostOps0 (F := Ideal)).Forall fun op => Proc.devRef .tc b ∉ op.writes) :
    W1 m ρ c (Proc.devRef .tc b) = m ((c : Thread nD τ).loc b) :=
  StableHlo.after_of_forall_not_mem _ _ (List.forall_iff_forall_mem.mp hb)

end First

/-- No operation of a stretch writes the buffer. -/
macro "no_write" ops:ident : tactic =>
  `(tactic| (simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes,
        StableHlo.binaryIndexed_writes, Finset.mem_singleton]; (repeat' apply And.intro); all_goals exact StableHlo.devRef_ne_of_ne (by decide)))

section Second
variable (c : Dev nD)

/-- The neighbour mean of an array `h`, as the kernel's host code computes it: the scattered sum times the
    reciprocal of `max in-degree 1`. -/
def meanK (e : IVec S2x3200000 32) (h : FVec Ideal S100000x64 .f32) : FVec Ideal S100000x64 .f32 :=
  mulf (F := Ideal) (agg (src1 e) (dst1 e) h) (spread (dinv (dst1 e)))

/-- The first call's output array as a term of the arguments. -/
def hiddenK (x : FVec Ideal S100000x64 .f32) (e : IVec S2x3200000 32) (Wl : FVec Ideal S64x64 .f32) (bl : FVec Ideal S64 .f32)
    (Wr W1 : FVec Ideal S64x64 .f32) (b1 : FVec Ideal S64 .f32) (W2 : FVec Ideal S64x64 .f32) (b2 : FVec Ideal S64 .f32) :
    FVec Ideal S100000x64 .f32 :=
  Reg0.G x (meanK e x) Wl (asRow bl) Wr W1 (asRow b1) W2 (asRow b2)

theorem W1_arg0 : W1 m ρ c (Proc.devRef .tc main_arg0) = (m ((c : Thread nD τ).loc main_arg0)) := W1_arg m ρ c main_arg0 (by no_write hostOps0)
theorem W1_arg2 : W1 m ρ c (Proc.devRef .tc main_arg2) = (m ((c : Thread nD τ).loc main_arg2)) := W1_arg m ρ c main_arg2 (by no_write hostOps0)
theorem W1_arg4 : W1 m ρ c (Proc.devRef .tc main_arg4) = (m ((c : Thread nD τ).loc main_arg4)) := W1_arg m ρ c main_arg4 (by no_write hostOps0)
theorem W1_arg5 : W1 m ρ c (Proc.devRef .tc main_arg5) = (m ((c : Thread nD τ).loc main_arg5)) := W1_arg m ρ c main_arg5 (by no_write hostOps0)
theorem W1_arg7 : W1 m ρ c (Proc.devRef .tc main_arg7) = (m ((c : Thread nD τ).loc main_arg7)) := W1_arg m ρ c main_arg7 (by no_write hostOps0)
theorem W1_arg9 : W1 m ρ c (Proc.devRef .tc main_arg9) = (m ((c : Thread nD τ).loc main_arg9)) := W1_arg m ρ c main_arg9 (by no_write hostOps0)
theorem W1_arg10 : W1 m ρ c (Proc.devRef .tc main_arg10) = (m ((c : Thread nD τ).loc main_arg10)) := W1_arg m ρ c main_arg10 (by no_write hostOps0)
theorem W1_arg11 : W1 m ρ c (Proc.devRef .tc main_arg11) = (m ((c : Thread nD τ).loc main_arg11)) := W1_arg m ρ c main_arg11 (by no_write hostOps0)

/-- After the first call its output array holds `hiddenK` of the arguments. -/
theorem W2_v28 : W2 m ρ c (Proc.devRef .tc main_v28)
    = hiddenK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W2_arr m ρ c 9).trans ((Reg0.final (V1 m ρ) c).trans ?_)
  show Reg0.G (W1 m ρ c (Proc.devRef .tc main_arg0)) (W1 m ρ c (Proc.devRef .tc main_v24)) (W1 m ρ c (Proc.devRef .tc main_arg2))
      (W1 m ρ c (Proc.devRef .tc main_v25)) (W1 m ρ c (Proc.devRef .tc main_arg4)) (W1 m ρ c (Proc.devRef .tc main_arg5))
      (W1 m ρ c (Proc.devRef .tc main_v26)) (W1 m ρ c (Proc.devRef .tc main_arg7)) (W1 m ρ c (Proc.devRef .tc main_v27)) = _
  rw [W1_arg0, W1_v24, W1_arg2, W1_v25, W1_arg4, W1_arg5, W1_v26, W1_arg7, W1_v27]
  rfl

theorem W2_v1 : W2 m ρ c (Proc.devRef .tc main_v1) = src1 (m ((c : Thread nD τ).loc main_arg1)) :=
  (W2_of_ne m ρ c main_v1 (by decide)).trans (W1_v1 m ρ c)
theorem W2_v3 : W2 m ρ c (Proc.devRef .tc main_v3) = dst1 (m ((c : Thread nD τ).loc main_arg1)) :=
  (W2_of_ne m ρ c main_v3 (by decide)).trans (W1_v3 m ρ c)
theorem W2_v11 : W2 m ρ c (Proc.devRef .tc main_v11) = dinv (dst1 (m ((c : Thread nD τ).loc main_arg1))) :=
  (W2_of_ne m ρ c main_v11 (by decide)).trans (W1_v11 m ρ c)
theorem W2_arg9 : W2 m ρ c (Proc.devRef .tc main_arg9) = (m ((c : Thread nD τ).loc main_arg9)) :=
  (W2_of_ne m ρ c main_arg9 (by decide)).trans (W1_arg9 m ρ c)
theorem W2_arg10 : W2 m ρ c (Proc.devRef .tc main_arg10) = (m ((c : Thread nD τ).loc main_arg10)) :=
  (W2_of_ne m ρ c main_arg10 (by decide)).trans (W1_arg10 m ρ c)
theorem W2_arg11 : W2 m ρ c (Proc.devRef .tc main_arg11) = (m ((c : Thread nD τ).loc main_arg11)) :=
  (W2_of_ne m ρ c main_arg11 (by decide)).trans (W1_arg11 m ρ c)

theorem W3_v28 : W3 m ρ c (Proc.devRef .tc main_v28) = W2 m ρ c (Proc.devRef .tc main_v28) :=
  StableHlo.after_of_forall_not_mem _ _ (List.forall_iff_forall_mem.mp (by no_write hostOps1))
theorem W3_arg9 : W3 m ρ c (Proc.devRef .tc main_arg9) = W2 m ρ c (Proc.devRef .tc main_arg9) :=
  StableHlo.after_of_forall_not_mem _ _ (List.forall_iff_forall_mem.mp (by no_write hostOps1))
theorem W3_arg11 : W3 m ρ c (Proc.devRef .tc main_arg11) = W2 m ρ c (Proc.devRef .tc main_arg11) :=
  StableHlo.after_of_forall_not_mem _ _ (List.forall_iff_forall_mem.mp (by no_write hostOps1))

set_option maxHeartbeats 4000000 in
theorem W3_v41 : W3 m ρ c (Proc.devRef .tc main_v41)
    = mulf (F := Ideal) (agg (W2 m ρ c (Proc.devRef .tc main_v1)) (W2 m ρ c (Proc.devRef .tc main_v3)) (W2 m ρ c (Proc.devRef .tc main_v28)))
        (spread (W2 m ρ c (Proc.devRef .tc main_v11))) := by
  show StableHlo.after hostOps1 (W2 m ρ c) (Proc.devRef .tc main_v41) = _
  after_results_simp
  rfl

theorem W3_v42 : W3 m ρ c (Proc.devRef .tc main_v42) = asRow (W2 m ρ c (Proc.devRef .tc main_arg10)) := by
  show StableHlo.after hostOps1 (W2 m ρ c) (Proc.devRef .tc main_v42) = _
  after_results
  rfl

/-- THE RESULT BUFFER after the run: the second call's function of the first call's output array, of its
    neighbour mean, and of the second layer's weights. -/
theorem result : W4 m ρ c (Proc.devRef .tc main_v43)
    = Reg1.G (hiddenK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)))
        (meanK (m ((c : Thread nD τ).loc main_arg1)) (hiddenK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))))
        (m ((c : Thread nD τ).loc main_arg9)) (asRow (m ((c : Thread nD τ).loc main_arg10))) (m ((c : Thread nD τ).loc main_arg11)) := by
  refine (W4_arr m ρ c 5).trans ((Reg1.final (V3 m ρ) c).trans ?_)
  show Reg1.G (W3 m ρ c (Proc.devRef .tc main_v28)) (W3 m ρ c (Proc.devRef .tc main_v41)) (W3 m ρ c (Proc.devRef .tc main_arg9))
      (W3 m ρ c (Proc.devRef .tc main_v42)) (W3 m ρ c (Proc.devRef .tc main_arg11)) = _
  rw [W3_v41, W3_v42, W3_v28, W3_arg9, W3_arg11, W2_v1, W2_v3, W2_v11, W2_v28, W2_arg9, W2_arg10, W2_arg11]
  rfl

end Second

end Cert.KernelIdeal.HostV

end
-- ==== Proof.RefRead.lean ====
/-
  The reference program read at an element.

  Each of its six matrix products, read at row `p` and feature `q`, is the sum over the 64 input
  features of the left operand's row `p` times row `q` of the (untransposed) weight matrix; each
  bias broadcast is the bias at `q`; ReLU is the maximum with zero. Put together, the intermediate
  array after the perceptron is, row by row, the perceptron of the first layer's linear
  combination, and the result is the second layer's linear combination of its rows and of the
  rows of its neighbour mean.
-/
import proofs.«166979_j22385369547049_1_alg».proof.Proof.Gen.ReferenceIdeal.Read
import proofs.«166979_j22385369547049_1_alg».proof.Proof.SageSpec

noncomputable section

open scoped BigOperators
open Idealize.ShloMosaic Idealize.ShloMosaic.ValueIdx Idealize.ShloMosaic.TcCoe

namespace Cert.ReferenceIdeal.RefRead

open Cert.ReferenceIdeal Cert.ReferenceIdeal.Gen Cert.ReferenceIdeal.Read Cert.Sage

/-- The product `%24` at `(p, q)`. -/
theorem dot24 (x0 : (⟨S100000x64, .f32⟩ : BufTy).Contents (Elt Ideal)) (x1 : (⟨S2x3200000, .i32⟩ : BufTy).Contents (Elt Ideal)) (x2 : (⟨S64x64, .f32⟩ : BufTy).Contents (Elt Ideal)) (p : Fin 100000) (q : Fin 64) :
    val_main_v24 (F := Ideal) x0 x1 x2 (ix2 p q) = ∑ k : Fin 64, (val_main_v22 (F := Ideal) x0 x1) (ix2 p k) * x2 (ix2 q k) := by
  rw [val_main_v24_apply]
  refine Finset.sum_congr rfl fun k _ => ?_
  rw [val_main_v23_apply]
  have el : lidx_main_v24 (ix2 p q) k = ix2 p k := funext fun a => by
    match a with
    | ⟨0, _⟩ => rfl
    | ⟨1, _⟩ => rfl
  have er : idx_main_v23 (ridx_main_v24 (ix2 p q) k) = ix2 q k := funext fun a => by
    match a with
    | ⟨0, _⟩ => rfl
    | ⟨1, _⟩ => rfl
  rw [el, er]

/-- The product `%29` at `(p, q)`. -/
theorem dot29 (x0 : (⟨S100000x64, .f32⟩ : BufTy).Contents (Elt Ideal)) (x4 : (⟨S64x64, .f32⟩ : BufTy).Contents (Elt Ideal)) (p : Fin 100000) (q : Fin 64) :
    val_main_v29 (F := Ideal) x0 x4 (ix2 p q) = ∑ k : Fin 64, (x0) (ix2 p k) * x4 (ix2 q k) := by
  rw [val_main_v29_apply]
  refine Finset.sum_congr rfl fun k _ => ?_
  rw [val_main_v28_apply]
  have el : lidx_main_v29 (ix2 p q) k = ix2 p k := funext fun a => by
    match a with
    | ⟨0, _⟩ => rfl
    | ⟨1, _⟩ => rfl
  have er : idx_main_v28 (ridx_main_v29 (ix2 p q) k) = ix2 q k := funext fun a => by
    match a with
    | ⟨0, _⟩ => rfl
    | ⟨1, _⟩ => rfl
  rw [el, er]

/-- The product `%33` at `(p, q)`. -/
theorem dot33 (x0 : (⟨S100000x64, .f32⟩ : BufTy).Contents (Elt Ideal)) (x1 : (⟨S2x3200000, .i32⟩ : BufTy).Contents (Elt Ideal)) (x2 : (⟨S64x64, .f32⟩ : BufTy).Contents (Elt Ideal)) (x3 : (⟨S64, .f32⟩ : BufTy).Contents (Elt Ideal)) (x4 x5 : (⟨S64x64, .f32⟩ : BufTy).Contents (Elt Ideal)) (p : Fin 100000) (q : Fin 64) :
    val_main_v33 (F := Ideal) x0 x1 x2 x3 x4 x5 (ix2 p q) = ∑ k : Fin 64, (val_main_v31 (F := Ideal) x0 x1 x2 x3 x4) (ix2 p k) * x5 (ix2 q k) := by
  rw [val_main_v33_apply]
  refine Finset.sum_congr rfl fun k _ => ?_
  rw [val_main_v32_apply]
  have el : lidx_main_v33 (ix2 p q) k = ix2 p k := funext fun a => by
    match a with
    | ⟨0, _⟩ => rfl
    | ⟨1, _⟩ => rfl
  have er : idx_main_v32 (ridx_main_v33 (ix2 p q) k) = ix2 q k := funext fun a => by
    match a with
    | ⟨0, _⟩ => rfl
    | ⟨1, _⟩ => rfl
  rw [el, er]

/-- The product `%39` at `(p, q)`. -/
theorem dot39 (x0 : (⟨S100000x64, .f32⟩ : BufTy).Contents (Elt Ideal)) (x1 : (⟨S2x3200000, .i32⟩ : BufTy).Contents (Elt Ideal)) (x2 : (⟨S64x64, .f32⟩ : BufTy).Contents (Elt Ideal)) (x3 : (⟨S64, .f32⟩ : BufTy).Contents (Elt Ideal)) (x4 x5 : (⟨S64x64, .f32⟩ : BufTy).Contents (Elt Ideal)) (x6 : (⟨S64, .f32⟩ : BufTy).Contents (Elt Ideal)) (x7 : (⟨S64x64, .f32⟩ : BufTy).Contents (Elt Ideal)) (p : Fin 100000) (q : Fin 64) :
    val_main_v39 (F := Ideal) x0 x1 x2 x3 x4 x5 x6 x7 (ix2 p q) = ∑ k : Fin 64, (val_main_v37 (F := Ideal) x0 x1 x2 x3 x4 x5 x6) (ix2 p k) * x7 (ix2 q k) := by
  rw [val_main_v39_apply]
  refine Finset.sum_congr rfl fun k _ => ?_
  rw [val_main_v38_apply]
  have el : lidx_main_v39 (ix2 p q) k = ix2 p k := funext fun a => by
    match a with
    | ⟨0, _⟩ => rfl
    | ⟨1, _⟩ => rfl
  have er : idx_main_v38 (ridx_main_v39 (ix2 p q) k) = ix2 q k := funext fun a => by
    match a with
    | ⟨0, _⟩ => rfl
    | ⟨1, _⟩ => rfl
  rw [el, er]

/-- The product `%63` at `(p, q)`. -/
theorem dot63 (x0 : (⟨S100000x64, .f32⟩ : BufTy).Contents (Elt Ideal)) (x1 : (⟨S2x3200000, .i32⟩ : BufTy).Contents (Elt Ideal)) (x2 : (⟨S64x64, .f32⟩ : BufTy).Contents (Elt Ideal)) (x3 : (⟨S64, .f32⟩ : BufTy).Contents (Elt Ideal)) (x4 x5 : (⟨S64x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) (x9 : (⟨S64x64, .f32⟩ : BufTy).Contents (Elt Ideal)) (p : Fin 100000) (q : Fin 64) :
    val_main_v63 (F := Ideal) x0 x1 x2 x3 x4 x5 x6 x7 x8 x9 (ix2 p q) = ∑ k : Fin 64, (val_main_v61 (F := Ideal) x0 x1 x2 x3 x4 x5 x6 x7 x8) (ix2 p k) * x9 (ix2 q k) := by
  rw [val_main_v63_apply]
  refine Finset.sum_congr rfl fun k _ => ?_
  rw [val_main_v62_apply]
  have el : lidx_main_v63 (ix2 p q) k = ix2 p k := funext fun a => by
    match a with
    | ⟨0, _⟩ => rfl
    | ⟨1, _⟩ => rfl
  have er : idx_main_v62 (ridx_main_v63 (ix2 p q) k) = ix2 q k := funext fun a => by
    match a with
    | ⟨0, _⟩ => rfl
    | ⟨1, _⟩ => rfl
  rw [el, er]

/-- The product `%68` at `(p, q)`. -/
theorem dot68 (x0 : (⟨S100000x64, .f32⟩ : BufTy).Contents (Elt Ideal)) (x1 : (⟨S2x3200000, .i32⟩ : BufTy).Contents (Elt Ideal)) (x2 : (⟨S64x64, .f32⟩ : BufTy).Contents (Elt Ideal)) (x3 : (⟨S64, .f32⟩ : BufTy).Contents (Elt Ideal)) (x4 x5 : (⟨S64x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) (x11 : (⟨S64x64, .f32⟩ : BufTy).Contents (Elt Ideal)) (p : Fin 100000) (q : Fin 64) :
    val_main_v68 (F := Ideal) x0 x1 x2 x3 x4 x5 x6 x7 x8 x11 (ix2 p q) = ∑ k : Fin 64, (val_main_v42 (F := Ideal) x0 x1 x2 x3 x4 x5 x6 x7 x8) (ix2 p k) * x11 (ix2 q k) := by
  rw [val_main_v68_apply]
  refine Finset.sum_congr rfl fun k _ => ?_
  rw [val_main_v67_apply]
  have el : lidx_main_v68 (ix2 p q) k = ix2 p k := funext fun a => by
    match a with
    | ⟨0, _⟩ => rfl
    | ⟨1, _⟩ => rfl
  have er : idx_main_v67 (ridx_main_v68 (ix2 p q) k) = ix2 q k := funext fun a => by
    match a with
    | ⟨0, _⟩ => rfl
    | ⟨1, _⟩ => rfl
  rw [el, er]

/-- The bias broadcast `%26` at `(p, q)`. -/
theorem bias26 (x3 : (⟨S64, .f32⟩ : BufTy).Contents (Elt Ideal)) (p : Fin 100000) (q : Fin 64) :
    val_main_v26 (F := Ideal) x3 (ix2 p q) = x3 (ix1 q) := by
  rw [val_main_v26_apply, val_main_v25_apply]
  exact congrArg x3 (funext fun a => by
    match a with
    | ⟨0, _⟩ => rfl)

/-- The bias broadcast `%35` at `(p, q)`. -/
theorem bias35 (x6 : (⟨S64, .f32⟩ : BufTy).Contents (Elt Ideal)) (p : Fin 100000) (q : Fin 64) :
    val_main_v35 (F := Ideal) x6 (ix2 p q) = x6 (ix1 q) := by
  rw [val_main_v35_apply, val_main_v34_apply]
  exact congrArg x6 (funext fun a => by
    match a with
    | ⟨0, _⟩ => rfl)

/-- The bias broadcast `%41` at `(p, q)`. -/
theorem bias41 (x8 : (⟨S64, .f32⟩ : BufTy).Contents (Elt Ideal)) (p : Fin 100000) (q : Fin 64) :
    val_main_v41 (F := Ideal) x8 (ix2 p q) = x8 (ix1 q) := by
  rw [val_main_v41_apply, val_main_v40_apply]
  exact congrArg x8 (funext fun a => by
    match a with
    | ⟨0, _⟩ => rfl)

/-- The bias broadcast `%65` at `(p, q)`. -/
theorem bias65 (x10 : (⟨S64, .f32⟩ : BufTy).Contents (Elt Ideal)) (p : Fin 100000) (q : Fin 64) :
    val_main_v65 (F := Ideal) x10 (ix2 p q) = x10 (ix1 q) := by
  rw [val_main_v65_apply, val_main_v64_apply]
  exact congrArg x10 (funext fun a => by
    match a with
    | ⟨0, _⟩ => rfl)

/-- The first ReLU's zero. -/
theorem zero0 (i : S100000x64.Idx) : val_main_call0_v0 (F := Ideal) i = 0 := by
  rw [val_main_call0_v0_apply, val_main_call0_cst_apply]
  exact Ideal.ofBits_zero_f32

/-- The second ReLU's zero. -/
theorem zero1 (i : S100000x64.Idx) : val_main_call1_v0 (F := Ideal) i = 0 := by
  rw [val_main_call1_v0_apply, val_main_call1_cst_apply]
  exact Ideal.ofBits_zero_f32

/-- The first ReLU's output at `(p, j)`: the positive part of the first layer's linear combination. -/
theorem relu1_apply (x0 : (⟨S100000x64, .f32⟩ : BufTy).Contents (Elt Ideal)) (x1 : (⟨S2x3200000, .i32⟩ : BufTy).Contents (Elt Ideal))
    (x2 : (⟨S64x64, .f32⟩ : BufTy).Contents (Elt Ideal)) (x3 : (⟨S64, .f32⟩ : BufTy).Contents (Elt Ideal)) (x4 : (⟨S64x64, .f32⟩ : BufTy).Contents (Elt Ideal)) (p : Fin 100000) (j : Fin 64) :
    val_main_v31 (F := Ideal) x0 x1 x2 x3 x4 (ix2 p j)
      = max (lin (row (val_main_v22 (F := Ideal) x0 x1) p) (row x0 p) (mat x2) (mat x4) (bvec x3) j) 0 := by
  rw [val_main_v31_apply, zero0, val_main_v30_apply, val_main_v27_apply, dot24, bias26, dot29]
  rfl

/-- The second ReLU's output at `(p, k)`. -/
theorem relu2_apply (x0 : (⟨S100000x64, .f32⟩ : BufTy).Contents (Elt Ideal)) (x1 : (⟨S2x3200000, .i32⟩ : BufTy).Contents (Elt Ideal))
    (x2 : (⟨S64x64, .f32⟩ : BufTy).Contents (Elt Ideal)) (x3 : (⟨S64, .f32⟩ : BufTy).Contents (Elt Ideal)) (x4 x5 : (⟨S64x64, .f32⟩ : BufTy).Contents (Elt Ideal)) (x6 : (⟨S64, .f32⟩ : BufTy).Contents (Elt Ideal)) (p : Fin 100000) (k : Fin 64) :
    val_main_v37 (F := Ideal) x0 x1 x2 x3 x4 x5 x6 (ix2 p k)
      = max ((∑ j : Fin 64, max (lin (row (val_main_v22 (F := Ideal) x0 x1) p) (row x0 p) (mat x2) (mat x4) (bvec x3) j) 0
          * mat x5 k j) + bvec x6 k) 0 := by
  rw [val_main_v37_apply, zero1, val_main_v36_apply, dot33, bias35]
  have e : (∑ j : Fin 64, val_main_v31 (F := Ideal) x0 x1 x2 x3 x4 (ix2 p j) * x5 (ix2 k j))
      = ∑ j : Fin 64, max (lin (row (val_main_v22 (F := Ideal) x0 x1) p) (row x0 p) (mat x2) (mat x4) (bvec x3) j) 0 * mat x5 k j :=
    Finset.sum_congr rfl fun j _ => by rw [relu1_apply]; rfl
  rw [e]
  rfl

/-- The array after the perceptron, at `(p, q)`: the perceptron of the first layer's linear combination of
    row `p` of the neighbour mean `%22` and of the features. -/
theorem hidden_apply (x0 : (⟨S100000x64, .f32⟩ : BufTy).Contents (Elt Ideal)) (x1 : (⟨S2x3200000, .i32⟩ : BufTy).Contents (Elt Ideal))
    (x2 : (⟨S64x64, .f32⟩ : BufTy).Contents (Elt Ideal)) (x3 : (⟨S64, .f32⟩ : BufTy).Contents (Elt Ideal)) (x4 x5 : (⟨S64x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) (p : Fin 100000) (q : Fin 64) :
    val_main_v42 (F := Ideal) x0 x1 x2 x3 x4 x5 x6 x7 x8 (ix2 p q)
      = mlp (lin (row (val_main_v22 (F := Ideal) x0 x1) p) (row x0 p) (mat x2) (mat x4) (bvec x3)) (mat x5) (mat x7)
          (bvec x6) (bvec x8) q := by
  rw [val_main_v42_apply, dot39, bias41]
  have e : (∑ k : Fin 64, val_main_v37 (F := Ideal) x0 x1 x2 x3 x4 x5 x6 (ix2 p k) * x7 (ix2 q k))
      = ∑ k : Fin 64, max ((∑ j : Fin 64, max (lin (row (val_main_v22 (F := Ideal) x0 x1) p) (row x0 p) (mat x2) (mat x4) (bvec x3) j) 0
          * mat x5 k j) + bvec x6 k) 0 * mat x7 q k :=
    Finset.sum_congr rfl fun k _ => by rw [relu2_apply]; rfl
  rw [e]
  rfl

/-- The result at `(p, q)`: the second layer's linear combination of row `p` of the neighbour mean `%61` and
    of the array after the perceptron. -/
theorem result_apply (x0 : (⟨S100000x64, .f32⟩ : BufTy).Contents (Elt Ideal)) (x1 : (⟨S2x3200000, .i32⟩ : BufTy).Contents (Elt Ideal))
    (x2 : (⟨S64x64, .f32⟩ : BufTy).Contents (Elt Ideal)) (x3 : (⟨S64, .f32⟩ : BufTy).Contents (Elt Ideal)) (x4 x5 : (⟨S64x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) (x9 : (⟨S64x64, .f32⟩ : BufTy).Contents (Elt Ideal)) (x10 : (⟨S64, .f32⟩ : BufTy).Contents (Elt Ideal))
    (x11 : (⟨S64x64, .f32⟩ : BufTy).Contents (Elt Ideal)) (p : Fin 100000) (q : Fin 64) :
    val_main_v69 (F := Ideal) x0 x1 x2 x3 x4 x5 x6 x7 x8 x9 x10 x11 (ix2 p q)
      = lin (row (val_main_v61 (F := Ideal) x0 x1 x2 x3 x4 x5 x6 x7 x8) p)
          (row (val_main_v42 (F := Ideal) x0 x1 x2 x3 x4 x5 x6 x7 x8) p) (mat x9) (mat x11) (bvec x10) q := by
  rw [val_main_v69_apply, val_main_v66_apply, dot63, bias65, dot68]
  rfl

end Cert.ReferenceIdeal.RefRead

end
-- ==== Proof.Bridge.lean ====
/-
  The two programs compute one function of the arguments.

  The kernel's host code forms a neighbour mean as the scattered sum times the reciprocal of
  `max in-degree 1`, the reference as the scattered sum divided by `max in-degree 1`; the gathers and
  scattered sums are the same whole-array operations on both sides, and the divisor is at least
  one, so the two means are one array (`Sage.mean_law`, index by index). Given that, the kernel's
  first output array is the reference's array after the perceptron, and the kernel's result is the
  reference's result: both are the same row-by-row functions of the same arrays.
-/
import proofs.«166979_j22385369547049_1_alg».proof.Proof.KernelHost
import proofs.«166979_j22385369547049_1_alg».proof.Proof.RefRead
import Idealize.ShloMosaic.Lib.Pipeline.Value

set_option maxRecDepth 65536

noncomputable section

open scoped BigOperators
open Idealize.ShloMosaic Idealize.ShloMosaic.ValueIdx Idealize.ShloMosaic.TcCoe

namespace Cert.Bridge

open Cert.Sage

/-- A per-node value spread along the features, at `(p, q)`, is the value at node `p`. -/
theorem spread_apply (f : FVec Ideal Cert.KernelIdeal.S100000 .f32) (p : Fin 100000) (q : Fin 64) :
    Cert.KernelIdeal.HostV.spread f (ix2 p q) = f (ix1 p) := by
  unfold Cert.KernelIdeal.HostV.spread
  rw [broadcastInDim_apply _ Cert.KernelIdeal.Gen.bcast_S100000x1_S100000x64_0_1 _ (ix2 p q) (ix2 p 0) (fun a => match a with
    | ⟨0, _⟩ => by show p.val = if (100000 : Nat) = 1 then 0 else p.val; rw [if_neg (by decide)]
    | ⟨1, _⟩ => by show 0 = if (1 : Nat) = 1 then 0 else q.val; rw [if_pos rfl])]
  exact broadcastInDim_apply _ Cert.KernelIdeal.Gen.bcast_S100000_S100000x1_0 f (ix2 p 0) (ix1 p) (fun a => match a with
    | ⟨0, _⟩ => by show p.val = if (100000 : Nat) = 1 then 0 else p.val; rw [if_neg (by decide)])

/-- For any array `A` and any per-node count `D`: `A` times the spread reciprocal of `max D 1` is `A` divided by the
    spread `max D 1`, index by index by the mean law. -/
theorem mean_bridge (A : FVec Ideal Cert.KernelIdeal.S100000x64 .f32) (D : FVec Ideal Cert.KernelIdeal.S100000 .f32) :
    mulf (F := Ideal) A (Cert.KernelIdeal.HostV.spread (Host.divf (F := Ideal) Cert.KernelIdeal.HostV.ones (maximumf (F := Ideal) D Cert.KernelIdeal.HostV.ones)))
      = Host.divf (F := Ideal) A (Cert.KernelIdeal.HostV.spread (maximumf (F := Ideal) D Cert.KernelIdeal.HostV.ones)) := by
  funext i
  obtain ⟨p, q, rfl⟩ : ∃ (p : Fin 100000) (q : Fin 64), i = ix2 p q := ⟨i 0, i 1, eq_ix2 i⟩
  have h1 : Cert.KernelIdeal.HostV.ones (ix1 p) = 1 := ofBits_one
  show A (ix2 p q) * Cert.KernelIdeal.HostV.spread (Host.divf (F := Ideal) Cert.KernelIdeal.HostV.ones (maximumf (F := Ideal) D Cert.KernelIdeal.HostV.ones)) (ix2 p q)
    = Ideal.div (A (ix2 p q)) (Cert.KernelIdeal.HostV.spread (maximumf (F := Ideal) D Cert.KernelIdeal.HostV.ones) (ix2 p q))
  rw [spread_apply, spread_apply]
  show A (ix2 p q) * Ideal.div (Cert.KernelIdeal.HostV.ones (ix1 p)) (max (D (ix1 p)) (Cert.KernelIdeal.HostV.ones (ix1 p)))
    = Ideal.div (A (ix2 p q)) (max (D (ix1 p)) (Cert.KernelIdeal.HostV.ones (ix1 p)))
  rw [h1]
  exact mean_law _ _

/-- The kernel's neighbour mean is the scattered sum divided by `max in-degree 1`. -/
theorem meanK_eq (e : IVec Cert.KernelIdeal.S2x3200000 32) (h : FVec Ideal Cert.KernelIdeal.S100000x64 .f32) :
    Cert.KernelIdeal.HostV.meanK e h
      = Host.divf (F := Ideal) (Cert.KernelIdeal.HostV.agg (Cert.KernelIdeal.HostV.src1 e) (Cert.KernelIdeal.HostV.dst1 e) h) (Cert.KernelIdeal.HostV.spread (Cert.KernelIdeal.HostV.dmax (Cert.KernelIdeal.HostV.dst1 e))) := by
  unfold Cert.KernelIdeal.HostV.meanK Cert.KernelIdeal.HostV.dinv Cert.KernelIdeal.HostV.dmax
  exact mean_bridge _ _

/-- The reference's first neighbour mean is the kernel's. -/
theorem v22_eq (x0 : FVec Ideal Cert.KernelIdeal.S100000x64 .f32) (x1 : IVec Cert.KernelIdeal.S2x3200000 32) :
    Cert.ReferenceIdeal.Read.val_main_v22 (F := Ideal) x0 x1 = Cert.KernelIdeal.HostV.meanK x1 x0 := by
  rw [meanK_eq]
  rfl

/-- A bias vector kept as a one-row array, read along its row, is the vector. -/
theorem brow_asRow (b : FVec Ideal Cert.KernelIdeal.S64 .f32) : brow (Cert.KernelIdeal.HostV.asRow b) = bvec b :=
  funext fun q => shapeCast_apply b Cert.KernelIdeal.Gen.shapeCasts_S64_S1x64 (ix2 0 q) (ix1 q) (by
    rw [Shape.rowMajor_val_one, Shape.rowMajor_val_two]
    show q.val = 0 * 64 + q.val
    omega)

/-- The kernel's first output array is the reference's array after the perceptron. -/
theorem hidden_eq (x0 : FVec Ideal Cert.KernelIdeal.S100000x64 .f32) (x1 : IVec Cert.KernelIdeal.S2x3200000 32) (x2 : FVec Ideal Cert.KernelIdeal.S64x64 .f32) (x3 : FVec Ideal Cert.KernelIdeal.S64 .f32) (x4 x5 : FVec Ideal Cert.KernelIdeal.S64x64 .f32) (x6 : FVec Ideal Cert.KernelIdeal.S64 .f32) (x7 : FVec Ideal Cert.KernelIdeal.S64x64 .f32) (x8 : FVec Ideal Cert.KernelIdeal.S64 .f32) :
    Cert.KernelIdeal.HostV.hiddenK x0 x1 x2 x3 x4 x5 x6 x7 x8 = Cert.ReferenceIdeal.Read.val_main_v42 (F := Ideal) x0 x1 x2 x3 x4 x5 x6 x7 x8 := by
  funext i
  obtain ⟨p, q, rfl⟩ : ∃ (p : Fin 100000) (q : Fin 64), i = ix2 p q := ⟨i 0, i 1, eq_ix2 i⟩
  rw [Cert.ReferenceIdeal.RefRead.hidden_apply, v22_eq]
  show mlp (lin (row (Cert.KernelIdeal.HostV.meanK x1 x0) p) (row x0 p) (mat x2) (mat x4) (brow (Cert.KernelIdeal.HostV.asRow x3))) (mat x5) (mat x7)
      (brow (Cert.KernelIdeal.HostV.asRow x6)) (brow (Cert.KernelIdeal.HostV.asRow x8)) q = _
  rw [brow_asRow, brow_asRow, brow_asRow]

/-- The reference's second neighbour mean is the kernel's, of the same array. -/
theorem v61_eq (x0 : FVec Ideal Cert.KernelIdeal.S100000x64 .f32) (x1 : IVec Cert.KernelIdeal.S2x3200000 32) (x2 : FVec Ideal Cert.KernelIdeal.S64x64 .f32) (x3 : FVec Ideal Cert.KernelIdeal.S64 .f32) (x4 x5 : FVec Ideal Cert.KernelIdeal.S64x64 .f32) (x6 : FVec Ideal Cert.KernelIdeal.S64 .f32) (x7 : FVec Ideal Cert.KernelIdeal.S64x64 .f32) (x8 : FVec Ideal Cert.KernelIdeal.S64 .f32) :
    Cert.ReferenceIdeal.Read.val_main_v61 (F := Ideal) x0 x1 x2 x3 x4 x5 x6 x7 x8
      = Cert.KernelIdeal.HostV.meanK x1 (Cert.ReferenceIdeal.Read.val_main_v42 (F := Ideal) x0 x1 x2 x3 x4 x5 x6 x7 x8) := by
  rw [meanK_eq]
  rfl

/-- THE RESULTS AGREE: the kernel's result array is the reference's. -/
theorem result_eq (x0 : FVec Ideal Cert.KernelIdeal.S100000x64 .f32) (x1 : IVec Cert.KernelIdeal.S2x3200000 32) (x2 : FVec Ideal Cert.KernelIdeal.S64x64 .f32) (x3 : FVec Ideal Cert.KernelIdeal.S64 .f32) (x4 x5 : FVec Ideal Cert.KernelIdeal.S64x64 .f32) (x6 : FVec Ideal Cert.KernelIdeal.S64 .f32) (x7 : FVec Ideal Cert.KernelIdeal.S64x64 .f32) (x8 : FVec Ideal Cert.KernelIdeal.S64 .f32) (x9 : FVec Ideal Cert.KernelIdeal.S64x64 .f32) (x10 : FVec Ideal Cert.KernelIdeal.S64 .f32)
    (x11 : FVec Ideal Cert.KernelIdeal.S64x64 .f32) :
    Cert.KernelIdeal.Reg1.G (Cert.KernelIdeal.HostV.hiddenK x0 x1 x2 x3 x4 x5 x6 x7 x8)
        (Cert.KernelIdeal.HostV.meanK x1 (Cert.KernelIdeal.HostV.hiddenK x0 x1 x2 x3 x4 x5 x6 x7 x8)) x9 (Cert.KernelIdeal.HostV.asRow x10) x11
      = Cert.ReferenceIdeal.Read.val_main_v69 (F := Ideal) x0 x1 x2 x3 x4 x5 x6 x7 x8 x9 x10 x11 := by
  rw [hidden_eq]
  funext i
  obtain ⟨p, q, rfl⟩ : ∃ (p : Fin 100000) (q : Fin 64), i = ix2 p q := ⟨i 0, i 1, eq_ix2 i⟩
  rw [Cert.ReferenceIdeal.RefRead.result_apply, v61_eq]
  show lin (row (Cert.KernelIdeal.HostV.meanK x1 (Cert.ReferenceIdeal.Read.val_main_v42 (F := Ideal) x0 x1 x2 x3 x4 x5 x6 x7 x8)) p)
      (row (Cert.ReferenceIdeal.Read.val_main_v42 (F := Ideal) x0 x1 x2 x3 x4 x5 x6 x7 x8) p) (mat x9) (mat x11) (brow (Cert.KernelIdeal.HostV.asRow x10)) q = _
  rw [brow_asRow]

end Cert.Bridge

end
-- ==== Proof.lean ====
/-
  Two SAGE layers with a perceptron between them, on a graph of 100000 nodes with 64 features and
  3200000 edges: the tiled program against the plain one, on the extended reals.

  Both programs slice the edge list, count in-degrees by a scattered sum of ones, and form each
  layer's neighbour mean from a gather of the source rows and a scattered sum onto the
  destinations. The tiled program then runs two calls over 20 blocks of 5000 rows — the first
  computes `relu (mean · Wlᵀ + bl + x · Wrᵀ)` followed by the two-layer perceptron, the second the
  second layer's linear combination — while the plain program does the same with whole-array
  matrix products. On the extended reals every matrix product is the same sum over the 64 input
  features, format changes do nothing, and tiling by rows changes nothing because every output
  row depends on its own input row only. The one place the two differ is the mean: a product with
  `1 / max deg 1` against a quotient by `max deg 1`; the divisor is at least one, so both are the
  product with its inverse (`Sage.mean_law`). No finiteness of the inputs is used.

  The modules: `SageSpec` (the row functions and the mean law), `KernelPay` (a grid point's stored
  value at an element), `KernelRegion0` / `KernelRegion1` (each call's output array from its blocks),
  `KernelHost` (the host operations' terms and the result buffer), `KernelRun` (the run with the
  result named), `RefRead` (the plain program at an element), `Bridge` (the two are one function).
-/
import proofs.«166979_j22385369547049_1_alg».proof.Defs
import proofs.«166979_j22385369547049_1_alg».proof.Proof.Gen.Kernel
import proofs.«166979_j22385369547049_1_alg».proof.Proof.Gen.Kernel.Skeleton
import proofs.«166979_j22385369547049_1_alg».proof.Proof.Gen.Kernel.Launch
import proofs.«166979_j22385369547049_1_alg».proof.Proof.Gen.Kernel.Points
import proofs.«166979_j22385369547049_1_alg».proof.Proof.Gen.Kernel.Frame
import proofs.«166979_j22385369547049_1_alg».proof.Proof.Gen.KernelIdeal
import proofs.«166979_j22385369547049_1_alg».proof.Proof.Gen.KernelIdeal.Skeleton
import proofs.«166979_j22385369547049_1_alg».proof.Proof.Gen.KernelIdeal.Launch
import proofs.«166979_j22385369547049_1_alg».proof.Proof.Gen.KernelIdeal.Points
import proofs.«166979_j22385369547049_1_alg».proof.Proof.Gen.KernelIdeal.Frame
import proofs.«166979_j22385369547049_1_alg».proof.Proof.Gen.ReferenceIdeal
import proofs.«166979_j22385369547049_1_alg».proof.Proof.Gen.ReferenceIdeal.Run
import proofs.«166979_j22385369547049_1_alg».proof.Proof.Gen.ReferenceIdeal.Read
import proofs.«166979_j22385369547049_1_alg».proof.Proof.Gen.Pre_finite_inputs
import proofs.«166979_j22385369547049_1_alg».proof.Proof.KernelRun
import proofs.«166979_j22385369547049_1_alg».proof.Proof.KernelHost
import proofs.«166979_j22385369547049_1_alg».proof.Proof.Bridge
import Idealize.ShloMosaic.Adequacy
import Idealize.ShloMosaic.Init

noncomputable section

namespace Cert.Proof

open Idealize.ShloMosaic Idealize.SL.Sem

/-- The word-level program runs and leaves its arguments alone. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- The plain program's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the plain program's result term of
    the arguments: the tiled program by its run, its result buffer read back through both calls
    (`HostV.result`) and the bridge (`Bridge.result_eq`); the plain program by its run. -/
theorem algebraic : Cert.algebraic_KernelIdeal_ReferenceIdeal := by
  intro m ρ m' ρ' _ hagree
  refine ⟨fun c => Cert.ReferenceIdeal.Read.val_main_v69 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · exact (θ_run Cert.KernelIdeal.defs _ _).mono
      (fun r h c => ⟨(h c).1.trans ((Cert.KernelIdeal.HostV.result m ρ c).trans
        (Cert.Bridge.result_eq _ _ _ _ _ _ _ _ _ _ _ _)), (h c).2⟩)
      (Cert.KernelIdeal.RunV.run (F := Ideal) m ρ)
  · refine (θ_run Cert.ReferenceIdeal.defs _ _).mono (fun r h c => ⟨(h c).1.trans ?_, (h c).2⟩)
      (Cert.ReferenceIdeal.Value.run (F := Ideal) m' ρ')
    obtain ⟨a0, a1, a2, a3, a4, a5, a6, a7, a8, a9, a10, a11⟩ := hagree c
    rw [Cert.ReferenceIdeal.Read.val_main_v69_eq, a0, a1, a2, a3, a4, a5, a6, a7, a8, a9, a10, a11]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
